-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16384 : Shape := ⟨2, ![2, 16384]⟩
abbrev S16384x64 : Shape := ⟨2, ![16384, 64]⟩
abbrev S512 : Shape := ⟨1, ![512]⟩
abbrev S64x64 : Shape := ⟨2, ![64, 64]⟩
abbrev S512x128 : Shape := ⟨2, ![512, 128]⟩
abbrev S64x512 : Shape := ⟨2, ![64, 512]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S512 : S_.BroadcastsInDim S512 (![] : Fin 0 → Fin S512.rank)
  reducesTo_S512_S_d0 : S512.ReducesTo [0] S_
  bcast_S_S64x64 : S_.BroadcastsInDim S64x64 (![] : Fin 0 → Fin S64x64.rank)
  reducesTo_S64x64_S_d0_1 : S64x64.ReducesTo [0, 1] S_
  bcast_S_S512x128 : S_.BroadcastsInDim S512x128 (![] : Fin 0 → Fin S512x128.rank)
  reducesTo_S512x128_S_d0_1 : S512x128.ReducesTo [0, 1] S_
  bcast_S_S64x512 : S_.BroadcastsInDim S64x512 (![] : Fin 0 → Fin S64x512.rank)
  reducesTo_S64x512_S_d0_1 : S64x512.ReducesTo [0, 1] S_

variable [Facts]

def fn_part1 {F : FTy → Type} [FloatOps F] (main_arg5 : FVec F S512x128 .f32) (main_arg6 : FVec F S64x512 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S512x128 .f32 := Host.absf main_arg5
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S64x512 .f32 := Host.absf main_arg6
  let main_cst_8 : FVec F S_ .f32 := constant S_ .f32 0x7F800000#32
  let main_v25 : FVec F S64x512 .f32 := broadcastInDim S64x512 ![] bcast_S_S64x512 main_cst_8
  let main_v26 : IVec S64x512 1 := cmpf .olt main_v24 main_v25
  let main_c_9 : IVec S_ 1 := constantI S_ 1 1#1
  let main_v27 : IVec S_ 1 := (fun x v => Host.reduce IntOp.andi x v reducesTo_S64x512_S_d0_1 h_S_) main_v26 main_c_9
  let main_v28 : IVec S_ 1 := andi main_v23 main_v27
  main_v28

def fn {F : FTy → Type} [FloatOps F] (main_arg0 : IVec S2x16384 32) (main_arg1 : FVec F S16384x64 .f32) (main_arg2 : FVec F S512 .f32) (main_arg3 : FVec F S64x64 .f32) (main_arg4 : FVec F S64x64 .f32) (main_arg5 : FVec F S512x128 .f32) (main_arg6 : FVec F S64x512 .f32) : IVec S_ 1 :=
  let main_v0 : FVec F S16384x64 .f32 := Host.absf main_arg1
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_v13 main_v16
-- ==== Kernel.lean ====
abbrev S2x16384 : Shape := ⟨2, ![2, 16384]⟩
abbrev S16384x64 : Shape := ⟨2, ![16384, 64]⟩
abbrev S512 : Shape := ⟨1, ![512]⟩
abbrev S64x64 : Shape := ⟨2, ![64, 64]⟩
abbrev S512x128 : Shape := ⟨2, ![512, 128]⟩
abbrev S64x512 : Shape := ⟨2, ![64, 512]⟩
abbrev S1x16384 : Shape := ⟨2, ![1, 16384]⟩
abbrev S16384 : Shape := ⟨1, ![16384]⟩
abbrev S2048x64 : Shape := ⟨2, ![2048, 64]⟩
abbrev S_ : Shape := ⟨0, ![]⟩
abbrev S64x512x512 : Shape := ⟨3, ![64, 512, 512]⟩
abbrev S64x16384 : Shape := ⟨2, ![64, 16384]⟩
abbrev S16384x1 : Shape := ⟨2, ![16384, 1]⟩
abbrev S16384x2 : Shape := ⟨2, ![16384, 2]⟩
abbrev S4x512x512 : Shape := ⟨3, ![4, 512, 512]⟩
abbrev S2048x128 : Shape := ⟨2, ![2048, 128]⟩
abbrev S128x512 : Shape := ⟨2, ![128, 512]⟩
abbrev S2048x512 : Shape := ⟨2, ![2048, 512]⟩
abbrev S512x64 : Shape := ⟨2, ![512, 64]⟩

abbrev nBuf : Space → Nat
  | .hbm => 78
  | .vmem => 22
  | .smem => 0
  | _ => 0

abbrev bufTy : (tb : Table) → Fin (tcTables nBuf tb) → BufTy
  | .hbm, ⟨0, _⟩ => ⟨S2x16384, .i32⟩
  | .hbm, ⟨1, _⟩ => ⟨S16384x64, .f32⟩
  | .hbm, ⟨2, _⟩ => ⟨S512, .f32⟩
  | .hbm, ⟨3, _⟩ => ⟨S64x64, .f32⟩
  | .hbm, ⟨4, _⟩ => ⟨S64x64, .f32⟩
  | .hbm, ⟨5, _⟩ => ⟨S512x128, .f32⟩
  | .hbm, ⟨6, _⟩ => ⟨S64x512, .f32⟩
  | .hbm, ⟨7, _⟩ => ⟨S1x16384, .i32⟩
  | .hbm, ⟨8, _⟩ => ⟨S16384, .i32⟩
  | .hbm, ⟨9, _⟩ => ⟨S1x16384, .i32⟩
  | .hbm, ⟨10, _⟩ => ⟨S16384, .i32⟩
  | .hbm, ⟨11, _⟩ => ⟨S16384x64, .f32⟩
  | .hbm, ⟨12, _⟩ => ⟨S16384x64, .f32⟩
  | .hbm, ⟨13, _⟩ => ⟨S_, .bf16⟩
  | .hbm, ⟨14, _⟩ => ⟨S64x512x512, .bf16⟩
  | .hbm, ⟨15, _⟩ => ⟨S64x16384, .f32⟩
  | .hbm, ⟨16, _⟩ => ⟨S64x16384, .bf16⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S16384x1, .i32⟩
  | .hbm, ⟨32, _⟩ => ⟨S16384x1, .i32⟩
  | .hbm, ⟨33, _⟩ => ⟨S16384x2, .i32⟩
  | .hbm, ⟨34, _⟩ => ⟨S64x512x512, .bf16⟩
  | .hbm, ⟨35, _⟩ => ⟨S_, .bf16⟩
  | .hbm, ⟨36, _⟩ => ⟨S64x512x512, .bf16⟩
  | .hbm, ⟨37, _⟩ => ⟨S64x16384, .f32⟩
  | .hbm, ⟨38, _⟩ => ⟨S64x16384, .bf16⟩
  | .hbm, ⟨39, _⟩ => ⟨S_, .i32⟩
  | .hbm, ⟨40, _⟩ => ⟨S16384, .i32⟩
  | .hbm, ⟨41, _⟩ => ⟨S16384, .i1⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S_, .i32⟩
  | .hbm, ⟨47, _⟩ => ⟨S16384, .i32⟩
  | .hbm, ⟨48, _⟩ => ⟨S16384, .i1⟩
  | .hbm, ⟨49, _⟩ => ⟨S_, .i32⟩
  | .hbm, ⟨50, _⟩ => ⟨S16384, .i32⟩
  | .hbm, ⟨51, _⟩ => ⟨S16384, .i32⟩
  | .hbm, ⟨52, _⟩ => ⟨S16384, .i32⟩
  | .hbm, ⟨53, _⟩ => ⟨S16384x1, .i32⟩
  | .hbm, ⟨54, _⟩ => ⟨S16384x1, .i32⟩
  | .hbm, ⟨55, _⟩ => ⟨S16384x2, .i32⟩
  | .hbm, ⟨56, _⟩ => ⟨S64x512x512, .bf16⟩
  | .hbm, ⟨57, _⟩ => ⟨S64x512x512, .f32⟩
  | .hbm, ⟨58, _⟩ => ⟨S_, .i32⟩
  | .hbm, ⟨59, _⟩ => ⟨S16384, .i32⟩
  | .hbm, ⟨60, _⟩ => ⟨S16384, .i1⟩
  | .hbm, ⟨61, _⟩ => ⟨S_, .i32⟩
  | .hbm, ⟨62, _⟩ => ⟨S16384, .i32⟩
  | .hbm, ⟨63, _⟩ => ⟨S16384, .i32⟩
  | .hbm, ⟨64, _⟩ => ⟨S16384, .i32⟩
  | .hbm, ⟨65, _⟩ => ⟨S_, .i32⟩
  | .hbm, ⟨66, _⟩ => ⟨S16384, .i32⟩
  | .hbm, ⟨67, _⟩ => ⟨S16384, .i1⟩
  | .hbm, ⟨68, _⟩ => ⟨S_, .i32⟩
  | .hbm, ⟨69, _⟩ => ⟨S16384, .i32⟩
  | .hbm, ⟨70, _⟩ => ⟨S16384, .i32⟩
  | .hbm, ⟨71, _⟩ => ⟨S16384, .i32⟩
  | .hbm, ⟨72, _⟩ => ⟨S16384x1, .i32⟩
  | .hbm, ⟨73, _⟩ => ⟨S16384x1, .i32⟩
  | .hbm, ⟨74, _⟩ => ⟨S16384x2, .i32⟩
  | .hbm, ⟨75, _⟩ => ⟨S64x16384, .f32⟩
  | .hbm, ⟨76, _⟩ => ⟨S16384x64, .f32⟩
  | .hbm, ⟨77, _⟩ => ⟨S16384x64, .f32⟩
  | .local _ .vmem, ⟨0, _⟩ => ⟨S2048x64, .f32⟩
  | .local _ .vmem, ⟨1, _⟩ => ⟨S2048x64, .f32⟩
  | .local _ .vmem, ⟨2, _⟩ => ⟨S64x64, .f32⟩
  | .local _ .vmem, ⟨3, _⟩ => ⟨S64x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S4x512x512, .bf16⟩
  | .local _ .vmem, ⟨9, _⟩ => ⟨S4x512x512, .bf16⟩
  | .local _ .vmem, ⟨10, _⟩ => ⟨S4x512x512, .bf16⟩
  | .local _ .vmem, ⟨11, _⟩ => ⟨S4x512x512, .bf16⟩
  | .local _ .vmem, ⟨12, _⟩ => ⟨S4x512x512, .f32⟩
  | .local _ .vmem, ⟨13, _⟩ => ⟨S4x512x512, .f32⟩
  | .local _ .vmem, ⟨14, _⟩ => ⟨S2048x64, .f32⟩
  | .local _ .vmem, ⟨15, _⟩ => ⟨S2048x64, .f32⟩
  | .local _ .vmem, ⟨16, _⟩ => ⟨S2048x64, .f32⟩
  | .local _ .vmem, ⟨17, _⟩ => ⟨S2048x64, .f32⟩
  | .local _ .vmem, ⟨18, _⟩ => ⟨S512x128, .f32⟩
  | .local _ .vmem, ⟨19, _⟩ => ⟨S64x512, .f32⟩
  | .local _ .vmem, ⟨20, _⟩ => ⟨S2048x64, .f32⟩
  | .local _ .vmem, ⟨21, _⟩ => ⟨S2048x64, .f32⟩
  | _, _ => ⟨S2x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_c_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_10 : Ref sig .tc := ⟨.hbm, 65, rfl⟩
abbrev main_v45 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2048x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x16384_S1x16384_0_0 : S2x16384.Slices ![0, 0] S1x16384
  shapeCasts_S1x16384_S16384 : S1x16384.ShapeCasts S16384
  slices_S2x16384_S1x16384_1_0 : S2x16384.Slices ![1, 0] S1x16384
  inb_S2048x64_S2048x64_0_0 : ∀ a, (![0, 0] : Fin 2 → Nat) a + S2048x64.size a ≤ S2048x64.size a
  h_S2048x64 : 0 < S2048x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  bcast_S_S64x512x512 : S_.BroadcastsInDim S64x512x512 (![] : Fin 0 → Fin S64x512x512.rank)
  transposes_S16384x64_S64x16384_1_0 : S16384x64.Transposes [1, 0] S64x16384
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  inb_S4x512x512_S4x512x512_0_0_0 : ∀ a, (![0, 0, 0] : Fin 3 → Nat) a + S4x512x512.size a ≤ S4x512x512.size a
  h_S4x512x512 : 0 < S4x512x512.numel
  shapeCasts_S4x512x512_S4x512x512 : S4x512x512.ShapeCasts S4x512x512
  transposes_S64x16384_S16384x64_1_0 : S64x16384.Transposes [1, 0] S16384x64
  shapeCasts_S2048x64_S2048x64 : S2048x64.ShapeCasts S2048x64
  concatenates_S2048x64_S2048x64_S2048x128_d1 : Shape.Concatenates [S2048x64, S2048x64] S2048x128 1
  inb_S512x128_S512x128_0_0 : ∀ a, (![0, 0] : Fin 2 → Nat) a + S512x128.size a ≤ S512x128.size a
  h_S512x128 : 0 < S512x128.numel
  inb_S64x512_S64x512_0_0 : ∀ a, (![0, 0] : Fin 2 → Nat) a + S64x512.size a ≤ S64x512.size a
  h_S64x512 : 0 < S64x512.numel
  transposes_S512x128_p1_0_S128x512 : S512x128.Transposes [1, 0] S128x512
  transposes_S64x512_p1_0_S512x64 : S64x512.Transposes [1, 0] S512x64
  dot_S2048x64_S64x64_S2048x64_1_0_0_1_n_n_wf : DotDims.WF S2048x64 S64x64 S2048x64 [1] [0] [0] [1] [] []
  scatter_S64x512x512_S16384x2_S64x16384_0_12_12_1_wf : ScatterDims.WF S64x512x512 S16384x2 S64x16384 [0] [1, 2] [1, 2] 1
  dot_S4x512x512_S4x512x512_S4x512x512_2_1_1_2_0_0_wf : DotDims.WF S4x512x512 S4x512x512 S4x512x512 [2] [1] [1] [2] [0] [0]
  gather_S64x512x512_S16384x2_S64x16384_0_12_n_n_12_1_6411_wf : GatherDims.WF S64x512x512 S16384x2 S64x16384 [0] [1, 2] [] [1, 2] [] 1 ![64, 1, 1]
  dot_S2048x128_S128x512_S2048x512_1_0_0_1_n_n_wf : DotDims.WF S2048x128 S128x512 S2048x512 [1] [0] [0] [1] [] []
  dot_S2048x512_S512x64_S2048x64_1_0_0_1_n_n_wf : DotDims.WF S2048x512 S512x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .f32 = 32 ∨ (Rect.block (s := S16384x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S16384x64.size a
  hwx0_3 : ∀ i : grid0.Coords, EltTy.bits .f32 = 32 ∨ (Rect.block (s := S16384x64) S2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S16384x64.size a
  hwx0_4 : ∀ i : grid0.Coords, EltTy.bits .f32 = 32 ∨ (Rect.block (s := S16384x64) S2048x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x512.size a ≤ S64x512x512.size a
  hwx1_0 : ∀ i : grid1.Coords, EltTy.bits .bf16 = 32 ∨ (Rect.block (s := S64x512x512) S4x512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x512.size a ≤ S64x512x512.size a
  hwx1_1 : ∀ i : grid1.Coords, EltTy.bits .bf16 = 32 ∨ (Rect.block (s := S64x512x512) S4x512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512x512.size a ≤ S64x512x512.size a
  hwx1_2 : ∀ i : grid1.Coords, EltTy.bits .f32 = 32 ∨ (Rect.block (s := S64x512x512) S4x512x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S16384x64.size a
  hwx2_0 : ∀ i : grid2.Coords, EltTy.bits .f32 = 32 ∨ (Rect.block (s := S16384x64) S2048x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S16384x64.size a
  hwx2_1 : ∀ i : grid2.Coords, EltTy.bits .f32 = 32 ∨ (Rect.block (s := S16384x64) S2048x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x128.size a ≤ S512x128.size a
  hwx2_2 : ∀ i : grid2.Coords, EltTy.bits .f32 = 32 ∨ (Rect.block (s := S512x128) S512x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x512.size a ≤ S64x512.size a
  hwx2_3 : ∀ i : grid2.Coords, EltTy.bits .f32 = 32 ∨ (Rect.block (s := S64x512) S64x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x64.size a ≤ S16384x64.size a
  hwx2_4 : ∀ i : grid2.Coords, EltTy.bits .f32 = 32 ∨ (Rect.block (s := S16384x64) S2048x64.size (cc2_transform_4 i) (hinb2_4 i)).WholeWords (EltTy.packing .f32)

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def scatter_S64x512x512_S16384x2_S64x16384_0_12_12_1 : ScatterDims S64x512x512 S16384x2 S64x16384 where
  updateWindowDims := [0]
  insertedWindowDims := [1, 2]
  scatterDimsToOperandDims := [1, 2]
  indexVectorDim := 1
  wf := scatter_S64x512x512_S16384x2_S64x16384_0_12_12_1_wf
def dot_S4x512x512_S4x512x512_S4x512x512_2_1_1_2_0_0 : DotDims S4x512x512 S4x512x512 S4x512x512 where
  lhsContracting := [2]
  rhsContracting := [1]
  lhsNonContracting := [1]
  rhsNonContracting := [2]
  lhsBatch := [0]
  rhsBatch := [0]
  wf := dot_S4x512x512_S4x512x512_S4x512x512_2_1_1_2_0_0_wf
def gather_S64x512x512_S16384x2_S64x16384_0_12_n_n_12_1_6411 : GatherDims S64x512x512 S16384x2 S64x16384 where
  offsetDims := [0]
  collapsedSliceDims := [1, 2]
  operandBatchingDims := []
  startIndicesBatchingDims := []
  startIndexMap := [1, 2]
  indexVectorDim := 1
  sliceSizes := ![64, 1, 1]
  wf := gather_S64x512x512_S16384x2_S64x16384_0_12_n_n_12_1_6411_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf

abbrev win0_0 : Pipeline.Window sig grid0 :=
  Pipeline.Window.ofSpec (Memref.whole main_arg1) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S2048x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v21) S4x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S4x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S4x512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S512x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S2048x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S2x16384 : Shape := ⟨2, ![2, 16384]⟩
abbrev S16384x64 : Shape := ⟨2, ![16384, 64]⟩
abbrev S512 : Shape := ⟨1, ![512]⟩
abbrev S64x64 : Shape := ⟨2, ![64, 64]⟩
abbrev S512x128 : Shape := ⟨2, ![512, 128]⟩
abbrev S64x512 : Shape := ⟨2, ![64, 512]⟩
abbrev S1x16384 : Shape := ⟨2, ![1, 16384]⟩
abbrev S16384 : Shape := ⟨1, ![16384]⟩
abbrev S_ : Shape := ⟨0, ![]⟩
abbrev S64x512x512 : Shape := ⟨3, ![64, 512, 512]⟩
abbrev S64x16384 : Shape := ⟨2, ![64, 16384]⟩
abbrev S16384x1 : Shape := ⟨2, ![16384, 1]⟩
abbrev S16384x2 : Shape := ⟨2, ![16384, 2]⟩
abbrev S16384x128 : Shape := ⟨2, ![16384, 128]⟩
abbrev S128x512 : Shape := ⟨2, ![128, 512]⟩
abbrev S16384x512 : Shape := ⟨2, ![16384, 512]⟩
abbrev S512x64 : Shape := ⟨2, ![512, 64]⟩

abbrev nBuf : Space → Nat
  | .hbm => 85
  | .vmem => 0
  | .smem => 0
  | _ => 0

abbrev bufTy : (tb : Table) → Fin (tcTables nBuf tb) → BufTy
  | .hbm, ⟨0, _⟩ => ⟨S2x16384, .i32⟩
  | .hbm, ⟨1, _⟩ => ⟨S16384x64, .f32⟩
  | .hbm, ⟨2, _⟩ => ⟨S512, .f32⟩
  | .hbm, ⟨3, _⟩ => ⟨S64x64, .f32⟩
  | .hbm, ⟨4, _⟩ => ⟨S64x64, .f32⟩
  | .hbm, ⟨5, _⟩ => ⟨S512x128, .f32⟩
  | .hbm, ⟨6, _⟩ => ⟨S64x512, .f32⟩
  | .hbm, ⟨7, _⟩ => ⟨S1x16384, .i32⟩
  | .hbm, ⟨8, _⟩ => ⟨S16384, .i32⟩
  | .hbm, ⟨9, _⟩ => ⟨S1x16384, .i32⟩
  | .hbm, ⟨10, _⟩ => ⟨S16384, .i32⟩
  | .hbm, ⟨11, _⟩ => ⟨S64x64, .f32⟩
  | .hbm, ⟨12, _⟩ => ⟨S16384x64, .f32⟩
  | .hbm, ⟨13, _⟩ => ⟨S64x64, .f32⟩
  | .hbm, ⟨14, _⟩ => ⟨S16384x64, .f32⟩
  | .hbm, ⟨15, _⟩ => ⟨S_, .f32⟩
  | .hbm, ⟨16, _⟩ => ⟨S64x512x512, .f32⟩
  | .hbm, ⟨17, _⟩ => ⟨S64x16384, .f32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S16384, .i32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S16384x1, .i32⟩
  | .hbm, ⟨34, _⟩ => ⟨S16384x2, .i32⟩
  | .hbm, ⟨35, _⟩ => ⟨S64x512x512, .f32⟩
  | .hbm, ⟨36, _⟩ => ⟨S_, .f32⟩
  | .hbm, ⟨37, _⟩ => ⟨S64x512x512, .f32⟩
  | .hbm, ⟨38, _⟩ => ⟨S64x16384, .f32⟩
  | .hbm, ⟨39, _⟩ => ⟨S_, .i32⟩
  | .hbm, ⟨40, _⟩ => ⟨S16384, .i32⟩
  | .hbm, ⟨41, _⟩ => ⟨S16384, .i1⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S_, .i32⟩
  | .hbm, ⟨47, _⟩ => ⟨S16384, .i32⟩
  | .hbm, ⟨48, _⟩ => ⟨S16384, .i1⟩
  | .hbm, ⟨49, _⟩ => ⟨S_, .i32⟩
  | .hbm, ⟨50, _⟩ => ⟨S16384, .i32⟩
  | .hbm, ⟨51, _⟩ => ⟨S16384, .i32⟩
  | .hbm, ⟨52, _⟩ => ⟨S16384, .i32⟩
  | .hbm, ⟨53, _⟩ => ⟨S16384x1, .i32⟩
  | .hbm, ⟨54, _⟩ => ⟨S16384x1, .i32⟩
  | .hbm, ⟨55, _⟩ => ⟨S16384x2, .i32⟩
  | .hbm, ⟨56, _⟩ => ⟨S64x512x512, .f32⟩
  | .hbm, ⟨57, _⟩ => ⟨S64x512x512, .f32⟩
  | .hbm, ⟨58, _⟩ => ⟨S_, .i32⟩
  | .hbm, ⟨59, _⟩ => ⟨S16384, .i32⟩
  | .hbm, ⟨60, _⟩ => ⟨S16384, .i1⟩
  | .hbm, ⟨61, _⟩ => ⟨S_, .i32⟩
  | .hbm, ⟨62, _⟩ => ⟨S16384, .i32⟩
  | .hbm, ⟨63, _⟩ => ⟨S16384, .i32⟩
  | .hbm, ⟨64, _⟩ => ⟨S16384, .i32⟩
  | .hbm, ⟨65, _⟩ => ⟨S_, .i32⟩
  | .hbm, ⟨66, _⟩ => ⟨S16384, .i32⟩
  | .hbm, ⟨67, _⟩ => ⟨S16384, .i1⟩
  | .hbm, ⟨68, _⟩ => ⟨S_, .i32⟩
  | .hbm, ⟨69, _⟩ => ⟨S16384, .i32⟩
  | .hbm, ⟨70, _⟩ => ⟨S16384, .i32⟩
  | .hbm, ⟨71, _⟩ => ⟨S16384, .i32⟩
  | .hbm, ⟨72, _⟩ => ⟨S16384x1, .i32⟩
  | .hbm, ⟨73, _⟩ => ⟨S16384x1, .i32⟩
  | .hbm, ⟨74, _⟩ => ⟨S16384x2, .i32⟩
  | .hbm, ⟨75, _⟩ => ⟨S64x16384, .f32⟩
  | .hbm, ⟨76, _⟩ => ⟨S16384x64, .f32⟩
  | .hbm, ⟨77, _⟩ => ⟨S16384x128, .f32⟩
  | .hbm, ⟨78, _⟩ => ⟨S128x512, .f32⟩
  | .hbm, ⟨79, _⟩ => ⟨S16384x512, .f32⟩
  | .hbm, ⟨80, _⟩ => ⟨S_, .f32⟩
  | .hbm, ⟨81, _⟩ => ⟨S16384x512, .f32⟩
  | .hbm, ⟨82, _⟩ => ⟨S16384x512, .f32⟩
  | .hbm, ⟨83, _⟩ => ⟨S512x64, .f32⟩
  | .hbm, ⟨84, _⟩ => ⟨S16384x64, .f32⟩
  | _, _ => ⟨S2x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_8 : Ref sig .tc := ⟨.hbm, 58, rfl⟩
abbrev main_v41 : Ref sig .tc := ⟨.hbm, 59, rfl⟩
abbrev main_v42 : Ref sig .tc := ⟨.hbm, 60, rfl⟩
abbrev main_c_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_10 : Ref sig .tc := ⟨.hbm, 65, rfl⟩
abbrev main_v46 : Ref sig .tc := ⟨.hbm, 66, rfl⟩
abbrev main_v47 : Ref sig .tc := ⟨.hbm, 67, rfl⟩
abbrev main_c_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_call0_cst : Ref sig .tc := ⟨.hbm, 80, rfl⟩
abbrev main_call0_v0 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]

class Facts₀ : Prop where
  slices_S2x16384_S1x16384_0_0 : S2x16384.Slices ![0, 0] S1x16384
  shapeCasts_S1x16384_S16384 : S1x16384.ShapeCasts S16384
  slices_S2x16384_S1x16384_1_0 : S2x16384.Slices ![1, 0] S1x16384
  transposes_S64x64_S64x64_1_0 : S64x64.Transposes [1, 0] S64x64
  bcast_S_S64x512x512 : S_.BroadcastsInDim S64x512x512 (![] : Fin 0 → Fin S64x512x512.rank)
  transposes_S16384x64_S64x16384_1_0 : S16384x64.Transposes [1, 0] S64x16384
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  transposes_S64x16384_S16384x64_1_0 : S64x16384.Transposes [1, 0] S16384x64
  concatenates_S16384x64_S16384x64_S16384x128_d1 : Shape.Concatenates [S16384x64, S16384x64] S16384x128 1
  transposes_S512x128_S128x512_1_0 : S512x128.Transposes [1, 0] S128x512
  bcast_S_S16384x512 : S_.BroadcastsInDim S16384x512 (![] : Fin 0 → Fin S16384x512.rank)
  transposes_S64x512_S512x64_1_0 : S64x512.Transposes [1, 0] S512x64
  dot_S16384x64_S64x64_S16384x64_1_0_0_1_n_n_wf : DotDims.WF S16384x64 S64x64 S16384x64 [1] [0] [0] [1] [] []
  scatter_S64x512x512_S16384x2_S64x16384_0_12_12_1_wf : ScatterDims.WF S64x512x512 S16384x2 S64x16384 [0] [1, 2] [1, 2] 1
  dot_S64x512x512_S64x512x512_S64x512x512_2_1_1_2_0_0_wf : DotDims.WF S64x512x512 S64x512x512 S64x512x512 [2] [1] [1] [2] [0] [0]
  gather_S64x512x512_S16384x2_S64x16384_0_12_n_n_12_1_6411_wf : GatherDims.WF S64x512x512 S16384x2 S64x16384 [0] [1, 2] [] [1, 2] [] 1 ![64, 1, 1]
  dot_S16384x128_S128x512_S16384x512_1_0_0_1_n_n_wf : DotDims.WF S16384x128 S128x512 S16384x512 [1] [0] [0] [1] [] []
  dot_S16384x512_S512x64_S16384x64_1_0_0_1_n_n_wf : DotDims.WF S16384x512 S512x64 S16384x64 [1] [0] [0] [1] [] []

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def scatter_S64x512x512_S16384x2_S64x16384_0_12_12_1 : ScatterDims S64x512x512 S16384x2 S64x16384 where
  updateWindowDims := [0]
  insertedWindowDims := [1, 2]
  scatterDimsToOperandDims := [1, 2]
  indexVectorDim := 1
  wf := scatter_S64x512x512_S16384x2_S64x16384_0_12_12_1_wf
def dot_S64x512x512_S64x512x512_S64x512x512_2_1_1_2_0_0 : DotDims S64x512x512 S64x512x512 S64x512x512 where
  lhsContracting := [2]
  rhsContracting := [1]
  lhsNonContracting := [1]
  rhsNonContracting := [2]
  lhsBatch := [0]
  rhsBatch := [0]
  wf := dot_S64x512x512_S64x512x512_S64x512x512_2_1_1_2_0_0_wf
def gather_S64x512x512_S16384x2_S64x16384_0_12_n_n_12_1_6411 : GatherDims S64x512x512 S16384x2 S64x16384 where
  offsetDims := [0]
  collapsedSliceDims := [1, 2]
  operandBatchingDims := []
  startIndicesBatchingDims := []
  startIndexMap := [1, 2]
  indexVectorDim := 1
  sliceSizes := ![64, 1, 1]
  wf := gather_S64x512x512_S16384x2_S64x16384_0_12_n_n_12_1_6411_wf
def dot_S16384x128_S128x512_S16384x512_1_0_0_1_n_n : DotDims S16384x128 S128x512 S16384x512 where
  lhsContracting := [1]
  rhsContracting := [0]
  lhsNonContracting := [0]
  rhsNonContracting := [1]
  lhsBatch := []
  rhsBatch := []
  wf := dot_S16384x128_S128x512_S16384x512_1_0_0_1_n_n_wf
def dot_S16384x512_S512x64_S16384x64_1_0_0_1_n_n : DotDims S16384x512 S512x64 S16384x64 where
  lhsContracting := [1]
  rhsContracting := [0]
  lhsNonContracting := [0]
  rhsNonContracting := [1]
  lhsBatch := []
  rhsBatch := []
  wf := dot_S16384x512_S512x64_S16384x64_1_0_0_1_n_n_wf

class Facts : Prop extends Facts₀ where

variable [Facts]
-- ==== Proof.Spec.lean ====
/-
  What the program computes, index by index, on the extended reals.

  Edges carry feature rows `c : [16384, 64]`. Two linear maps `x = c · w₁ᵀ`, `y = c · w₂ᵀ` (`proj`) are scattered
  by the edge list into dense per-channel matrices `[64, 512, 512]`, multiplied channel by channel (`bmm`), gathered back at
  the edges, laid beside `c` (`cat`), and sent through a two-layer perceptron with a rectifier between the
  layers (`hidden`, `mlp`). Every matrix product is a finite sum of products over the one shared axis, written in the
  same order on both sides, so no law of the extended reals beyond reading a sum at an index is needed.
-/
import Idealize.ShloMosaic.PureOps.Ideal
import Idealize.ShloMosaic.Lib.ValueIdx

noncomputable section

namespace Cert.Spec

open Idealize.ShloMosaic Idealize.ShloMosaic.ValueIdx
open scoped BigOperators

/-- Edge rows: [16384, 64]. -/
abbrev SE : Shape := ⟨2, ![16384, 64]⟩
/-- A square weight: [64, 64]. -/
abbrev SW : Shape := ⟨2, ![64, 64]⟩
/-- Per-channel dense matrices: [64, 512, 512]. -/
abbrev SA : Shape := ⟨3, ![64, 512, 512]⟩
/-- First perceptron weight: [512, 128]. -/
abbrev SW1 : Shape := ⟨2, ![512, 128]⟩
/-- Second perceptron weight: [64, 512]. -/
abbrev SW2 : Shape := ⟨2, ![64, 512]⟩

/-- `x · wᵀ`: entry (e, j) is the sum over k of `x (e, k) · w (j, k)`. -/
def proj (x : SE.Idx → EReal) (w : SW.Idx → EReal) : SE.Idx → EReal :=
  fun i => ∑ k : Fin 64, x (ix2 (i 0) k) * w (ix2 (i 1) k)

/-- Channel-wise product: entry (f, p, q) is the sum over k of `a (f, p, k) · b (f, k, q)`. -/
def bmm (a b : SA.Idx → EReal) : SA.Idx → EReal :=
  fun i => ∑ k : Fin 512, a (ix3 (i 0) (i 1) k) * b (ix3 (i 0) k (i 2))

/-- Row `r` of `x` and of `t` side by side: column k < 64 is `x (r, k)`, column k ≥ 64 is `t (r, k − 64)`. -/
def cat (x t : SE.Idx → EReal) (r : Fin 16384) (k : Fin 128) : EReal :=
  if h : k.val < 64 then x (ix2 r ⟨k.val, h⟩) else t (ix2 r ⟨k.val - 64, by have := k.isLt; omega⟩)

/-- The hidden layer after the rectifier: `max (∑ₖ cat (r, k) · w₁ (h, k)) 0`. -/
def hidden (x t : SE.Idx → EReal) (w1 : SW1.Idx → EReal) (r : Fin 16384) (h : Fin 512) : EReal :=
  max (∑ k : Fin 128, cat x t r k * w1 (ix2 h k)) 0

/-- The perceptron's output: entry (e, j) is the sum over h of `hidden (e, h) · w₂ (j, h)`. -/
def mlp (x t : SE.Idx → EReal) (w1 : SW1.Idx → EReal) (w2 : SW2.Idx → EReal) : SE.Idx → EReal :=
  fun i => ∑ h : Fin 512, hidden x t w1 (i 0) h * w2 (ix2 (i 1) h)

end Cert.Spec

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.Region0.lean ====
/-
  Region 0: the two linear projections, from the blocks each grid point writes to the whole arrays.

  The grid has 8 points. Point t reads rows 2048·t … 2048·t + 2047 of the edge rows c ([16384, 64]) and the whole of
  each square weight ([64, 64]), and writes the same rows of x = c · w₁ᵀ and of y = c · w₂ᵀ. Three steps:

  * one block's product at (p, q): the body narrows both operands (the identity on extended reals), transposes the
    weight, and multiplies into a zero accumulator, so the entry is ∑ₖ c_blk (p, k) · w (q, k);
  * row p of point t's block is row 2048·t + p of the array, and a weight's block is the whole weight, so what point t
    writes is the block of rows 2048·t … of the projection of the arrays;
  * row r of the result lies in the block of point r / 2048, so the blocks cover the array, which therefore ends
    holding the projection everywhere.
-/
import proofs.«139627_j73916387164334_1_alg».proof.Proof.Gen.KernelIdeal.Frame
import proofs.«139627_j73916387164334_1_alg».proof.Proof.Spec
import proofs.«139627_j73916387164334_1_alg».proof.Proof.LibDense
import Idealize.ShloMosaic.Lib.Pipeline.Value
import Idealize.ShloMosaic.Lib.ValueIdx
import Idealize.ShloMosaic.Lib.ValueLayout

noncomputable section

namespace Cert.KernelIdeal.Val

open Idealize.ShloMosaic Idealize.ShloMosaic.TcCoe Idealize.SL.Sem Cert.KernelIdeal Cert.KernelIdeal.Gen
open Idealize.ShloMosaic.ValueIdx
open scoped BigOperators

variable (V : (c : Dev nD) → (b : Ref sig .tc) → Buf (Elt Ideal) ((c : Thread nD τ).loc b))

/-! ## One block's product at an index -/

/-- The offsets (0, 0), as the constant zero function. -/
theorem zero_offsets : (![0, 0] : Fin 2 → Nat) = fun _ => 0 := funext fun a => by fin_cases a <;> rfl

/-- The first product at (p, q): the sum over k of the row block at (p, k) times the weight at (q, k) — narrowing is the
    identity, the transposed weight at (k, q) is the weight at (q, k), and the accumulator starts at zero. -/
theorem proj_block_apply (x : Vec Ideal S2048x64 .f32) (w : Vec Ideal S64x64 .f32) (p : Fin 2048) (q : Fin 64) :
    k0_pay2 (F := Ideal) x w (ix2 p q) = ∑ k : Fin 64, x (ix2 p k) * w (ix2 q k) := by
  unfold k0_pay2 k0_pay1
  refine (Cert.LibDense.matmul_zero_plain dot_S2048x64_S64x64_S2048x64_1_0_0_1_n_n_wf none _ _ p q).trans ?_
  refine Finset.sum_congr rfl fun k _ => ?_
  rw [transpose_ix2_apply]
  rfl

/-- If row p of the row block is row `i 0` of `x`, and row q of the weight block is row `i 1` of `w`, the first product
    at (p, q) is the projection of `x` by `w` at `i`. -/
theorem point_proj_x (x : S16384x64.Idx → EReal) (w : S64x64.Idx → EReal)
    (xb : Vec Ideal S2048x64 .f32) (wb : Vec Ideal S64x64 .f32) (i : S16384x64.Idx) (p : Fin 2048) (q : Fin 64)
    (hx : ∀ k : Fin 64, xb (ix2 p k) = x (ix2 (i 0) k)) (hw : ∀ k : Fin 64, wb (ix2 q k) = w (ix2 (i 1) k)) :
    k0_pay2 (F := Ideal) xb wb (ix2 p q) = Cert.Spec.proj x w i := by
  rw [proj_block_apply]
  unfold Cert.Spec.proj
  exact Finset.sum_congr rfl fun k _ => by rw [hx k, hw k]

/-- The second product is the same expression of its operands as the first, so it has the same reading. -/
theorem point_proj_y (x : S16384x64.Idx → EReal) (w : S64x64.Idx → EReal)
    (xb : Vec Ideal S2048x64 .f32) (wb : Vec Ideal S64x64 .f32) (i : S16384x64.Idx) (p : Fin 2048) (q : Fin 64)
    (hx : ∀ k : Fin 64, xb (ix2 p k) = x (ix2 (i 0) k)) (hw : ∀ k : Fin 64, wb (ix2 q k) = w (ix2 (i 1) k)) :
    k0_pay3 (F := Ideal) xb wb (ix2 p q) = Cert.Spec.proj x w i :=
  point_proj_x x w xb wb i p q hx hw

/-! ## Which block each point touches -/

/-- At point t the row windows (the edge rows and both results) sit at block (t, 0) and the weight windows at block
    (0, 0): decided over the 8 points. -/
theorem block_index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## What a point writes: a block of the projection -/

/-- Point t writes, to the first result, rows 2048·t … of the projection of the edge rows by the first weight. An
    element's coordinate in an array is its block's index times the block's extent plus its coordinate in the block. -/
theorem flushed_x (c : Dev nD) (t : Fin cfg0.N) :
    (dat0 (F := Ideal) V c).flushed 3 t
      = ((cfg0.win 3).blk t).view.read (Elt Ideal) (Cert.Spec.proj (V c main_arg1) (V c main_arg3)) := by
  show (cfg0.win 3).cut (grid0.coords t) ((dat0 (F := Ideal) V c).after 3 t) = _
  rw [after0_3]
  unfold out0_3
  rw [View.canon_unit_zero zero_offsets]
  simp only [View.ld_unit_zero (S := S2048x64) zero_offsets, View.ld_unit_zero (S := S64x64) zero_offsets]
  obtain ⟨e00, e01, e10, e11, -, -, e30, e31, -, -⟩ := block_index_facts t
  funext j
  obtain ⟨p, q, rfl⟩ : ∃ (p : Fin 2048) (q : Fin 64), j = ix2 p q := ⟨j 0, j 1, eq_ix2 j⟩
  show k0_pay2 (F := Ideal) (iblk0 V c 0 t) (iblk0 V c 1 t) (ix2 p q)
    = Cert.Spec.proj (V c main_arg1) (V c main_arg3) (((cfg0.win 3).blk t).view.emb (ix2 p q))
  refine point_proj_x _ _ _ _ _ p q (fun k => ?_) (fun k => ?_)
  · show V c main_arg1 (((cfg0.win 0).blk t).view.emb (ix2 p k))
      = V c main_arg1 (ix2 ((((cfg0.win 3).blk t).view.emb (ix2 p q)) 0) k)
    refine congrArg (V c main_arg1) (funext fun a => Fin.ext ?_)
    match a with
    | ⟨0, _⟩ =>
      show win0_0.index t (0 : Fin 2) * 2048 + 1 * p.val = win0_3.index t (0 : Fin 2) * 2048 + 1 * p.val
      omega
    | ⟨1, _⟩ =>
      show win0_0.index t (1 : Fin 2) * 64 + 1 * k.val = k.val
      omega
  · show V c main_arg3 (((cfg0.win 1).blk t).view.emb (ix2 q k))
      = V c main_arg3 (ix2 ((((cfg0.win 3).blk t).view.emb (ix2 p q)) 1) k)
    refine congrArg (V c main_arg3) (funext fun a => Fin.ext ?_)
    match a with
    | ⟨0, _⟩ =>
      show win0_1.index t (0 : Fin 2) * 64 + 1 * q.val = win0_3.index t (1 : Fin 2) * 64 + 1 * q.val
      omega
    | ⟨1, _⟩ =>
      show win0_1.index t (1 : Fin 2) * 64 + 1 * k.val = k.val
      omega

/-- Point t writes, to the second result, rows 2048·t … of the projection of the edge rows by the second weight. -/
theorem flushed_y (c : Dev nD) (t : Fin cfg0.N) :
    (dat0 (F := Ideal) V c).flushed 4 t
      = ((cfg0.win 4).blk t).view.read (Elt Ideal) (Cert.Spec.proj (V c main_arg1) (V c main_arg4)) := by
  show (cfg0.win 4).cut (grid0.coords t) ((dat0 (F := Ideal) V c).after 4 t) = _
  rw [after0_4]
  unfold out0_4
  rw [View.canon_unit_zero zero_offsets]
  simp only [View.ld_unit_zero (S := S2048x64) zero_offsets, View.ld_unit_zero (S := S64x64) zero_offsets]
  obtain ⟨e00, e01, -, -, e20, e21, -, -, e40, e41⟩ := block_index_facts t
  funext j
  obtain ⟨p, q, rfl⟩ : ∃ (p : Fin 2048) (q : Fin 64), j = ix2 p q := ⟨j 0, j 1, eq_ix2 j⟩
  show k0_pay3 (F := Ideal) (iblk0 V c 0 t) (iblk0 V c 2 t) (ix2 p q)
    = Cert.Spec.proj (V c main_arg1) (V c main_arg4) (((cfg0.win 4).blk t).view.emb (ix2 p q))
  refine point_proj_y _ _ _ _ _ p q (fun k => ?_) (fun k => ?_)
  · show V c main_arg1 (((cfg0.win 0).blk t).view.emb (ix2 p k))
      = V c main_arg1 (ix2 ((((cfg0.win 4).blk t).view.emb (ix2 p q)) 0) k)
    refine congrArg (V c main_arg1) (funext fun a => Fin.ext ?_)
    match a with
    | ⟨0, _⟩ =>
      show win0_0.index t (0 : Fin 2) * 2048 + 1 * p.val = win0_4.index t (0 : Fin 2) * 2048 + 1 * p.val
      omega
    | ⟨1, _⟩ =>
      show win0_0.index t (1 : Fin 2) * 64 + 1 * k.val = k.val
      omega
  · show V c main_arg4 (((cfg0.win 2).blk t).view.emb (ix2 q k))
      = V c main_arg4 (ix2 ((((cfg0.win 4).blk t).view.emb (ix2 p q)) 1) k)
    refine congrArg (V c main_arg4) (funext fun a => Fin.ext ?_)
    match a with
    | ⟨0, _⟩ =>
      show win0_2.index t (0 : Fin 2) * 64 + 1 * q.val = win0_4.index t (1 : Fin 2) * 64 + 1 * q.val
      omega
    | ⟨1, _⟩ =>
      show win0_2.index t (1 : Fin 2) * 64 + 1 * k.val = k.val
      omega

/-! ## The blocks cover the arrays -/

/-- An index is in point t's block of the first result iff each coordinate is in the block's range on its axis. -/
theorem mem_block_x (t : Fin cfg0.N) (i : S16384x64.Idx) :
    i ∈ ((cfg0.win 3).blk t).view.set ↔ ∀ a : Fin 2, win0_3.index t a * S2048x64.size a ≤ (i a).val
      ∧ (i a).val < win0_3.index t a * S2048x64.size a + S2048x64.size a := by
  show i ∈ ((View.whole main_v4_0).slice (win0_3.rect t)).set ↔ _
  rw [View.set_slice_whole, Rect.mem_set_unit]
  exact Iff.rfl

/-- The same for the second result. -/
theorem mem_block_y (t : Fin cfg0.N) (i : S16384x64.Idx) :
    i ∈ ((cfg0.win 4).blk t).view.set ↔ ∀ a : Fin 2, win0_4.index t a * S2048x64.size a ≤ (i a).val
      ∧ (i a).val < win0_4.index t a * S2048x64.size a + S2048x64.size a := by
  show i ∈ ((View.whole main_v4_1).slice (win0_4.rect t)).set ↔ _
  rw [View.set_slice_whole, Rect.mem_set_unit]
  exact Iff.rfl

/-- Row r of the first result is in the block of point r / 2048, which writes back. -/
theorem cover_x (i : S16384x64.Idx) :
    ∃ t : Fin cfg0.N, (cfg0.win 3).flush t = true ∧ i ∈ ((cfg0.win 3).blk t).view.set := by
  have hN : cfg0.N = 8 := N_0
  have hi0 : (i 0).val < 16384 := (i 0).isLt
  have hi1 : (i 1).val < 64 := (i 1).isLt
  have ht : (i 0).val / 2048 < cfg0.N := by rw [hN]; omega
  obtain ⟨-, -, -, -, -, -, e30, e31, -, -⟩ := block_index_facts ⟨(i 0).val / 2048, ht⟩
  have e30' : win0_3.index ⟨(i 0).val / 2048, ht⟩ (0 : Fin 2) = (i 0).val / 2048 := e30
  refine ⟨⟨(i 0).val / 2048, ht⟩, flush0_3 _, ?_⟩
  rw [mem_block_x]
  intro a
  match a with
  | ⟨0, _⟩ =>
    show win0_3.index ⟨(i 0).val / 2048, ht⟩ (0 : Fin 2) * 2048 ≤ (i 0).val
      ∧ (i 0).val < win0_3.index ⟨(i 0).val / 2048, ht⟩ (0 : Fin 2) * 2048 + 2048
    omega
  | ⟨1, _⟩ =>
    show win0_3.index ⟨(i 0).val / 2048, ht⟩ (1 : Fin 2) * 64 ≤ (i 1).val
      ∧ (i 1).val < win0_3.index ⟨(i 0).val / 2048, ht⟩ (1 : Fin 2) * 64 + 64
    omega

/-- Row r of the second result is in the block of point r / 2048, which writes back. -/
theorem cover_y (i : S16384x64.Idx) :
    ∃ t : Fin cfg0.N, (cfg0.win 4).flush t = true ∧ i ∈ ((cfg0.win 4).blk t).view.set := by
  have hN : cfg0.N = 8 := N_0
  have hi0 : (i 0).val < 16384 := (i 0).isLt
  have hi1 : (i 1).val < 64 := (i 1).isLt
  have ht : (i 0).val / 2048 < cfg0.N := by rw [hN]; omega
  obtain ⟨-, -, -, -, -, -, -, -, e40, e41⟩ := block_index_facts ⟨(i 0).val / 2048, ht⟩
  have e40' : win0_4.index ⟨(i 0).val / 2048, ht⟩ (0 : Fin 2) = (i 0).val / 2048 := e40
  refine ⟨⟨(i 0).val / 2048, ht⟩, flush0_4 _, ?_⟩
  rw [mem_block_y]
  intro a
  match a with
  | ⟨0, _⟩ =>
    show win0_4.index ⟨(i 0).val / 2048, ht⟩ (0 : Fin 2) * 2048 ≤ (i 0).val
      ∧ (i 0).val < win0_4.index ⟨(i 0).val / 2048, ht⟩ (0 : Fin 2) * 2048 + 2048
    omega
  | ⟨1, _⟩ =>
    show win0_4.index ⟨(i 0).val / 2048, ht⟩ (1 : Fin 2) * 64 ≤ (i 1).val
      ∧ (i 1).val < win0_4.index ⟨(i 0).val / 2048, ht⟩ (1 : Fin 2) * 64 + 64
    omega

/-! ## The arrays after the region -/

/-- The first result ends holding the projection of the edge rows by the first weight. -/
theorem region0_x (c : Dev nD) :
    (dat0 (F := Ideal) V c).arrAt 3 cfg0.N = Cert.Spec.proj (V c main_arg1) (V c main_arg3) :=
  (dat0 (F := Ideal) V c).arrAt_eq_of_cover 3 (Cert.Spec.proj (V c main_arg1) (V c main_arg3))
    (fun t _ => flushed_x V c t) cover_x

/-- The second result ends holding the projection of the edge rows by the second weight. -/
theorem region0_y (c : Dev nD) :
    (dat0 (F := Ideal) V c).arrAt 4 cfg0.N = Cert.Spec.proj (V c main_arg1) (V c main_arg4) :=
  (dat0 (F := Ideal) V c).arrAt_eq_of_cover 4 (Cert.Spec.proj (V c main_arg1) (V c main_arg4))
    (fun t _ => flushed_y V c t) cover_y

end Cert.KernelIdeal.Val

end
-- ==== Proof.LibBatchMM.lean ====
/-
  A batched matrix product on the vector unit read at an index, over variable extents, at the extended reals.

  For the dimension numbers "[B, M, K] by [B, K, N]" (batch axis 0 of both operands, the left operand's axis 2
  contracted with the right operand's axis 1), a product into the zero accumulator is at (b, p, c) the sum over the
  shared axis of the left operand's row (b, p) times the right operand's column (b, ·, c): batches never mix, and the
  terms stand in the order of the shared coordinate.

  * `batchedOf`: those dimension numbers over any well-formedness witness; a printed record with these axis lists
    is one of these by unfolding.
  * `lhs_batch`, `lhs_row`, `rhs_batch`, `rhs_col`: which coordinate of the result each uncontracted operand
    coordinate reads.
  * `batched_sum`: the contraction sum at (b, p, c) re-indexed by the one contracted coordinate.
  * `matmul_zero_batched`: hence the product into the zero accumulator read at (b, p, c).
-/
import Idealize.ShloMosaic.Lib.ValueIdx
import Idealize.ShloMosaic.PureOps.Ideal.Laws

noncomputable section

namespace Cert.LibBatchMM

open Idealize.ShloMosaic Idealize.ShloMosaic.ValueIdx
open scoped BigOperators

/-- The batched dimension numbers `<[2], [1], [1], [2], [0], [0]>` over any well-formedness witness: two records with
    these axis lists differ only in that witness. -/
abbrev batchedOf {B M K N : Nat}
    (wf : DotDims.WF (⟨3, ![B, M, K]⟩ : Shape) ⟨3, ![B, K, N]⟩ ⟨3, ![B, M, N]⟩ [2] [1] [1] [2] [0] [0]) :
    DotDims (⟨3, ![B, M, K]⟩ : Shape) ⟨3, ![B, K, N]⟩ ⟨3, ![B, M, N]⟩ :=
  { lhsContracting := [2], rhsContracting := [1], lhsNonContracting := [1], rhsNonContracting := [2],
    lhsBatch := [0], rhsBatch := [0], wf := wf }

variable {B M K N : Nat}
  (wf : DotDims.WF (⟨3, ![B, M, K]⟩ : Shape) ⟨3, ![B, K, N]⟩ ⟨3, ![B, M, N]⟩ [2] [1] [1] [2] [0] [0])

/-- The left operand's batch coordinate is the result's. -/
theorem lhs_batch (i : (⟨3, ![B, M, N]⟩ : Shape).Idx) (q : (batchedOf wf).contr.Idx) :
    ((batchedOf wf).lhsIdx i q 0).val = (i 0).val := by
  unfold DotDims.lhsIdx
  rw [dif_pos (show (0 : Fin 3) ∈ (batchedOf wf).lhsBatch from List.mem_singleton.mpr rfl)]
  rfl

/-- The left operand's row is the result's row. -/
theorem lhs_row (i : (⟨3, ![B, M, N]⟩ : Shape).Idx) (q : (batchedOf wf).contr.Idx) :
    ((batchedOf wf).lhsIdx i q 1).val = (i 1).val := by
  unfold DotDims.lhsIdx
  rw [dif_neg (show ¬(1 : Fin 3) ∈ (batchedOf wf).lhsBatch from fun h => (show (1 : Fin 3) ≠ 0 by decide) (List.mem_singleton.mp h)),
    dif_pos (show (1 : Fin 3) ∈ (batchedOf wf).lhsNonContracting from List.mem_singleton.mpr rfl)]
  rfl

/-- The right operand's batch coordinate is the result's. -/
theorem rhs_batch (i : (⟨3, ![B, M, N]⟩ : Shape).Idx) (q : (batchedOf wf).contr.Idx) :
    ((batchedOf wf).rhsIdx i q 0).val = (i 0).val := by
  unfold DotDims.rhsIdx
  rw [dif_pos (show (0 : Fin 3) ∈ (batchedOf wf).rhsBatch from List.mem_singleton.mpr rfl)]
  rfl

/-- The right operand's column is the result's column. -/
theorem rhs_col (i : (⟨3, ![B, M, N]⟩ : Shape).Idx) (q : (batchedOf wf).contr.Idx) :
    ((batchedOf wf).rhsIdx i q 2).val = (i 2).val := by
  unfold DotDims.rhsIdx
  rw [dif_neg (show ¬(2 : Fin 3) ∈ (batchedOf wf).rhsBatch from fun h => (show (2 : Fin 3) ≠ 0 by decide) (List.mem_singleton.mp h)),
    dif_pos (show (2 : Fin 3) ∈ (batchedOf wf).rhsNonContracting from List.mem_singleton.mpr rfl)]
  rfl

/-- The contraction sum of a batched product at (b, p, c), re-indexed by the one contracted coordinate. -/
theorem batched_sum (l : (⟨3, ![B, M, K]⟩ : Shape).Idx → EReal) (r : (⟨3, ![B, K, N]⟩ : Shape).Idx → EReal)
    (b : Fin B) (p : Fin M) (c : Fin N) :
    ∑ q : (batchedOf wf).contr.Idx, l ((batchedOf wf).lhsIdx (ix3 b p c) q) * r ((batchedOf wf).rhsIdx (ix3 b p c) q)
      = ∑ k : Fin K, l (ix3 b p k) * r (ix3 b k c) := by
  rw [← Equiv.sum_comp (contrEquiv1 (batchedOf wf) K rfl rfl).symm]
  refine Finset.sum_congr rfl fun k _ => ?_
  have hk := contrEquiv1_symm_val (batchedOf wf) K rfl rfl k
  have el : (batchedOf wf).lhsIdx (ix3 b p c) ((contrEquiv1 (batchedOf wf) K rfl rfl).symm k) = ix3 b p k :=
    funext fun a => Fin.ext (by
      match a with
      | ⟨0, _⟩ => exact lhs_batch wf _ _
      | ⟨1, _⟩ => exact lhs_row wf _ _
      | ⟨2, _⟩ => exact ((batchedOf wf).lhsIdx_val_of_single rfl _ _).trans hk)
  have er : (batchedOf wf).rhsIdx (ix3 b p c) ((contrEquiv1 (batchedOf wf) K rfl rfl).symm k) = ix3 b k c :=
    funext fun a => Fin.ext (by
      match a with
      | ⟨0, _⟩ => exact rhs_batch wf _ _
      | ⟨1, _⟩ => exact ((batchedOf wf).rhsIdx_val_of_single rfl _ _).trans hk
      | ⟨2, _⟩ => exact rhs_col wf _ _)
  rw [el, er]

/-- A batched matrix product on the vector unit into the zero accumulator, read at (b, p, c): the sum over the shared
    axis within batch b. -/
theorem matmul_zero_batched {φ₁ φ₂ : FTy} (prec : Option ContractPrecision)
    (l : FVec Ideal (⟨3, ![B, M, K]⟩ : Shape) φ₁) (r : FVec Ideal (⟨3, ![B, K, N]⟩ : Shape) φ₂)
    (b : Fin B) (p : Fin M) (c : Fin N) :
    matmul (batchedOf wf) prec l r (constant (F := Ideal) (⟨3, ![B, M, N]⟩ : Shape) .f32 0x00000000#32) (ix3 b p c)
      = ∑ k : Fin K, l (ix3 b p k) * r (ix3 b k c) :=
  (Ideal.matmul_constant_zero_apply (batchedOf wf) prec l r (ix3 b p c)).trans (batched_sum wf l r b p c)

end Cert.LibBatchMM

end
-- ==== Proof.Region1.lean ====
/-
  Region 1: the channel-wise matrix product.

  The two operands are [64, 512, 512] arrays a and b, the result the [64, 512, 512] array whose entry (f, p, q) is
  the sum over k of a (f, p, k) · b (f, k, q). The grid has 16 points; point t takes channels 4·t … 4·t + 3 of both
  operands, multiplies them channel by channel into a zero accumulator, and writes the four product matrices to
  channels 4·t … 4·t + 3 of the result. Entry (b, p, q) of the block's product is the sum over k of the first block's
  (b, p, k) times the second block's (b, k, q); channel b of a block at point t is channel 4·t + b of its array and rows
  and columns are whole, so this is entry (4·t + b, p, q) of the channel-wise product of the arrays, term by term in the
  same order. Channel f lies in the block of point f / 4, so the 16 blocks cover the result.
-/
import proofs.«139627_j73916387164334_1_alg».proof.Proof.Gen.KernelIdeal.Frame
import proofs.«139627_j73916387164334_1_alg».proof.Proof.Spec
import proofs.«139627_j73916387164334_1_alg».proof.Proof.LibBatchMM
import Idealize.ShloMosaic.Lib.Pipeline.Value
import Idealize.ShloMosaic.Lib.ValueIdx

noncomputable section

namespace Cert.KernelIdeal.Val

open Idealize.ShloMosaic Idealize.ShloMosaic.TcCoe Idealize.SL.Sem Cert.KernelIdeal Cert.KernelIdeal.Gen
open Idealize.ShloMosaic.ValueIdx
open scoped BigOperators

variable (V : (c : Dev nD) → (b : Ref sig .tc) → Buf (Elt Ideal) ((c : Thread nD τ).loc b))

/-- The zero offsets of a whole-block access, however spelt. -/
theorem bmm_zero_off : (![0, 0, 0] : Fin 3 → Nat) = fun _ => 0 := funext fun a => by fin_cases a <;> rfl

/-- The body's payload at (b, p, q): the row (b, p) of the first block times the column (b, ·, q) of the second. -/
theorem bmm_payload_apply (x0 x1 : Vec Ideal S4x512x512 .bf16) (b : Fin 4) (p q : Fin 512) :
    k1_pay1 (F := Ideal) x0 x1 (ix3 b p q) = ∑ k : Fin 512, x0 (ix3 b p k) * x1 (ix3 b k q) := by
  unfold k1_pay1
  rw [shapeCast_self, shapeCast_self]
  exact Cert.LibBatchMM.matmul_zero_batched _ none x0 x1 b p q

/-- The channel-wise product at (f, p, q), the coordinates spelt out. -/
theorem bmm_apply (A B : Cert.Spec.SA.Idx → EReal) (f : Fin 64) (p q : Fin 512) :
    Cert.Spec.bmm A B (ix3 f p q) = ∑ k : Fin 512, A (ix3 f p k) * B (ix3 f k q) := rfl

/-- The printed index maps over the 16 points: every window's block index is (t, 0, 0). -/
theorem bmm_index_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

/-- What point t writes back is block t of the channel-wise product of the two operand arrays: channel 4·t + b of
    the block is channel b of both input blocks, rows and columns are whole. -/
theorem bmm_flushed_eq (c : Dev nD) (t : Fin cfg1.N) :
    (dat1 (F := Ideal) V c).flushed 2 t
      = ((cfg1.win 2).blk t).view.read (Elt Ideal) (Cert.Spec.bmm (V c main_v21) (V c main_v38)) := by
  show (cfg1.win 2).cut (grid1.coords t) ((dat1 (F := Ideal) V c).after 2 t) = _
  rw [after1_2]
  unfold out1_2
  rw [View.canon_unit_zero bmm_zero_off]
  simp only [View.ld_unit_zero (S := S4x512x512) bmm_zero_off]
  obtain ⟨e00, e01, e02, e10, e11, e12, e20, e21, e22⟩ := bmm_index_facts t
  have ht : t.val < 16 := t.isLt
  funext j
  obtain ⟨b, p, q, rfl⟩ : ∃ (b : Fin 4) (p q : Fin 512), j = ix3 b p q := ⟨j 0, j 1, j 2, eq_ix3 j⟩
  have hb : b.val < 4 := b.isLt
  show k1_pay1 (F := Ideal) (iblk1 V c 0 t) (iblk1 V c 1 t) (ix3 b p q)
    = Cert.Spec.bmm (V c main_v21) (V c main_v38) (((cfg1.win 2).blk t).view.emb (ix3 b p q))
  have hout : ((cfg1.win 2).blk t).view.emb (ix3 b p q) = ix3 (⟨t.val * 4 + b.val, by omega⟩ : Fin 64) p q := by
    funext a; apply Fin.ext
    match a with
    | ⟨0, _⟩ => show win1_2.index t (0 : Fin 3) * 4 + 1 * b.val = t.val * 4 + b.val; omega
    | ⟨1, _⟩ => show win1_2.index t (1 : Fin 3) * 512 + 1 * p.val = p.val; omega
    | ⟨2, _⟩ => show win1_2.index t (2 : Fin 3) * 512 + 1 * q.val = q.val; omega
  rw [bmm_payload_apply, hout, bmm_apply]
  refine Finset.sum_congr rfl fun k _ => ?_
  have hl : ((cfg1.win 0).blk t).view.emb (ix3 b p k) = ix3 (⟨t.val * 4 + b.val, by omega⟩ : Fin 64) p k := by
    funext a; apply Fin.ext
    match a with
    | ⟨0, _⟩ => show win1_0.index t (0 : Fin 3) * 4 + 1 * b.val = t.val * 4 + b.val; omega
    | ⟨1, _⟩ => show win1_0.index t (1 : Fin 3) * 512 + 1 * p.val = p.val; omega
    | ⟨2, _⟩ => show win1_0.index t (2 : Fin 3) * 512 + 1 * k.val = k.val; omega
  have hr : ((cfg1.win 1).blk t).view.emb (ix3 b k q) = ix3 (⟨t.val * 4 + b.val, by omega⟩ : Fin 64) k q := by
    funext a; apply Fin.ext
    match a with
    | ⟨0, _⟩ => show win1_1.index t (0 : Fin 3) * 4 + 1 * b.val = t.val * 4 + b.val; omega
    | ⟨1, _⟩ => show win1_1.index t (1 : Fin 3) * 512 + 1 * k.val = k.val; omega
    | ⟨2, _⟩ => show win1_1.index t (2 : Fin 3) * 512 + 1 * q.val = q.val; omega
  refine congrArg₂ (· * ·) ?_ ?_
  · show V c main_v21 (((cfg1.win 0).blk t).view.emb (ix3 b p k)) = _
    rw [hl]
  · show V c main_v38 (((cfg1.win 1).blk t).view.emb (ix3 b k q)) = _
    rw [hr]

/-- An index of the array is in point t's block iff each coordinate is in the block's range on its axis. -/
theorem bmm_mem_blk (t : Fin cfg1.N) (i : S64x512x512.Idx) :
    i ∈ ((cfg1.win 2).blk t).view.set ↔ ∀ a : Fin 3, win1_2.index t a * S4x512x512.size a ≤ (i a).val
      ∧ (i a).val < win1_2.index t a * S4x512x512.size a + S4x512x512.size a := by
  show i ∈ ((View.whole main_v39).slice (win1_2.rect t)).set ↔ _
  rw [View.set_slice_whole, Rect.mem_set_unit]
  exact Iff.rfl

/-- Every index (f, p, q) of the array is in the block of the point f / 4. -/
theorem bmm_cover (i : S64x512x512.Idx) :
    ∃ t : Fin cfg1.N, (cfg1.win 2).flush t = true ∧ i ∈ ((cfg1.win 2).blk t).view.set := by
  have hi0 : (i 0).val < 64 := (i 0).isLt
  have hi1 : (i 1).val < 512 := (i 1).isLt
  have hi2 : (i 2).val < 512 := (i 2).isLt
  have hN : (i 0).val / 4 < cfg1.N := by show (i 0).val / 4 < 16; omega
  obtain ⟨-, -, -, -, -, -, e20, e21, e22⟩ := bmm_index_facts ⟨(i 0).val / 4, hN⟩
  have e20' : win1_2.index ⟨(i 0).val / 4, hN⟩ (0 : Fin 3) = (i 0).val / 4 := e20
  refine ⟨⟨(i 0).val / 4, hN⟩, flush1_2 _, ?_⟩
  rw [bmm_mem_blk]
  intro a
  match a with
  | ⟨0, _⟩ =>
    show win1_2.index ⟨(i 0).val / 4, hN⟩ (0 : Fin 3) * 4 ≤ (i 0).val
      ∧ (i 0).val < win1_2.index ⟨(i 0).val / 4, hN⟩ (0 : Fin 3) * 4 + 4
    omega
  | ⟨1, _⟩ =>
    show win1_2.index ⟨(i 0).val / 4, hN⟩ (1 : Fin 3) * 512 ≤ (i 1).val
      ∧ (i 1).val < win1_2.index ⟨(i 0).val / 4, hN⟩ (1 : Fin 3) * 512 + 512
    omega
  | ⟨2, _⟩ =>
    show win1_2.index ⟨(i 0).val / 4, hN⟩ (2 : Fin 3) * 512 ≤ (i 2).val
      ∧ (i 2).val < win1_2.index ⟨(i 0).val / 4, hN⟩ (2 : Fin 3) * 512 + 512
    omega

/-- After region 1 the product array holds the channel-wise product of the two operand arrays as the region found
    them: every point writes back its block of it, and the 16 blocks cover the array. -/
theorem region1_r (c : Dev nD) :
    (dat1 (F := Ideal) V c).arrAt 2 cfg1.N = Cert.Spec.bmm (V c main_v21) (V c main_v38) :=
  (dat1 (F := Ideal) V c).arrAt_eq_of_cover 2 (Cert.Spec.bmm (V c main_v21) (V c main_v38))
    (fun t _ => bmm_flushed_eq V c t) bmm_cover

end Cert.KernelIdeal.Val

end
-- ==== Proof.Region2.lean ====
/-
  The value of the perceptron region, index by index, on the extended reals.

  The region runs over eight grid points. Point t holds rows 2048·t … 2048·t + 2047 of the two edge-row arrays
  x and tm (both [16384, 64]) and the two whole weights w₁ ([512, 128]) and w₂ ([64, 512]), and writes rows
  2048·t … of the result ([16384, 64]). What it writes at row p and column j of its block is

      ∑ₕ max (∑ₖ cat (p, k) · w₁ (h, k)) 0 · w₂ (j, h),

  where cat (p, ·) is row p of the x block followed by row p of the tm block. The narrowing conversions and the cast of
  a shape to itself do nothing on the extended reals, a transposed weight read at (k, c) is the weight at (c, k), a
  product into the zero accumulator is the sum over the shared axis, and the rectifier's threshold is the number 0.
  Row p of a block at point t is row 2048·t + p of its array, the eight row blocks tile the result, and so the result
  array ends as the perceptron of the four arrays as the region finds them.
-/
import proofs.«139627_j73916387164334_1_alg».proof.Proof.Gen.KernelIdeal.Frame
import proofs.«139627_j73916387164334_1_alg».proof.Proof.Spec
import proofs.«139627_j73916387164334_1_alg».proof.Proof.LibDense
import Idealize.ShloMosaic.Lib.ValueLayout

noncomputable section

namespace Cert.KernelIdeal.Val

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

namespace Mlp

open Idealize.ShloMosaic.ValueIdx
open scoped BigOperators

/-! ## One block -/

/-- One row of a block of the first input followed by the same row of the block of the second: column k < 64 is
    `x (p, k)`, column k ≥ 64 is `t (p, k − 64)`. -/
def catBlk (x t : S2048x64.Idx → EReal) (p : Fin 2048) (k : Fin 128) : EReal :=
  if h : k.val < 64 then x (ix2 p ⟨k.val, h⟩) else t (ix2 p ⟨k.val - 64, by have := k.isLt; omega⟩)

/-- The hidden layer of one block after the rectifier: `max (∑ₖ catBlk (p, k) · w₁ (h, k)) 0`. -/
def hiddenBlk (x t : S2048x64.Idx → EReal) (w1 : S512x128.Idx → EReal) (p : Fin 2048) (h : Fin 512) : EReal :=
  max (∑ k : Fin 128, catBlk x t p k * w1 (ix2 h k)) 0

/-- What one grid point stores, read at row p and column j of its block: the second layer applied to the block's
    hidden row. The roundings to the narrow float type and the cast of a shape to itself are identities on the extended
    reals; each transposed weight read at (k, c) is the weight at (c, k); each product into the zero accumulator is the
    sum over the shared axis; the rectifier's threshold is the number zero. -/
theorem pay_apply (x t : Vec Ideal S2048x64 .f32) (w1 : Vec Ideal S512x128 .f32) (w2 : Vec Ideal S64x512 .f32)
    (p : Fin 2048) (j : Fin 64) :
    k2_pay1 (F := Ideal) x t w1 w2 (ix2 p j) = ∑ h : Fin 512, hiddenBlk x t w1 p h * w2 (ix2 j h) := by
  unfold k2_pay1
  dsimp only
  refine (LibDense.matmul_zero_plain dot_S2048x512_S512x64_S2048x64_1_0_0_1_n_n_wf none _ _ p j).trans ?_
  refine Finset.sum_congr rfl fun h _ => ?_
  refine congrArg₂ (· * ·) ?_ (transpose_ix2_apply _ _ h j)
  show max (matmul dot_S2048x128_S128x512_S2048x512_1_0_0_1_n_n none _ _ _ (ix2 p h)) (Ideal.ofBits .f32 0x00000000#32) = _
  rw [Ideal.ofBits_zero_f32]
  unfold hiddenBlk
  refine congrArg (max · 0) ?_
  refine (LibDense.matmul_zero_plain dot_S2048x128_S128x512_S2048x512_1_0_0_1_n_n_wf none _ _ p h).trans ?_
  refine Finset.sum_congr rfl fun k _ => ?_
  refine congrArg₂ (· * ·) ?_ (transpose_ix2_apply _ _ k h)
  rw [shapeCast_self]
  exact LibDense.concat_cols_apply rfl x t concatenates_S2048x64_S2048x64_S2048x128_d1 p k

/-- The perceptron over whole arrays, read at row r and column j, from one block's value at (p, j): it is enough that
    the two row blocks hold rows p of the block as rows r of the arrays. -/
theorem blk_value (x t : S16384x64.Idx → EReal) (w1 : S512x128.Idx → EReal) (w2 : S64x512.Idx → EReal)
    (xb tb : Vec Ideal S2048x64 .f32) (p : Fin 2048) (j : Fin 64) (r : Fin 16384)
    (hx : ∀ k : Fin 64, xb (ix2 p k) = x (ix2 r k)) (ht : ∀ k : Fin 64, tb (ix2 p k) = t (ix2 r k)) :
    k2_pay1 (F := Ideal) xb tb w1 w2 (ix2 p j) = Cert.Spec.mlp x t w1 w2 (ix2 r j) := by
  rw [pay_apply]
  unfold Cert.Spec.mlp
  refine Finset.sum_congr rfl fun h _ => ?_
  refine congrArg₂ (· * ·) ?_ rfl
  unfold hiddenBlk Cert.Spec.hidden
  refine congrArg (max · 0) ?_
  refine Finset.sum_congr rfl fun k _ => ?_
  refine congrArg₂ (· * ·) ?_ rfl
  unfold catBlk Cert.Spec.cat
  by_cases hk : k.val < 64
  · rw [dif_pos hk, dif_pos hk]; exact hx _
  · rw [dif_neg hk, dif_neg hk]; exact ht _

/-- The same with the block's index and the array's index as they come: the array's row is the block row's, the columns
    agree. -/
theorem blk_value_idx (x t : S16384x64.Idx → EReal) (w1 : S512x128.Idx → EReal) (w2 : S64x512.Idx → EReal)
    (xb tb : Vec Ideal S2048x64 .f32) (y : S2048x64.Idx) (i : S16384x64.Idx) (hi1 : (i 1).val = (y 1).val)
    (hx : ∀ (u : S2048x64.Idx) (v : S16384x64.Idx), (u 0).val = (y 0).val → (v 0).val = (i 0).val →
      (v 1).val = (u 1).val → xb u = x v)
    (ht : ∀ (u : S2048x64.Idx) (v : S16384x64.Idx), (u 0).val = (y 0).val → (v 0).val = (i 0).val →
      (v 1).val = (u 1).val → tb u = t v) :
    k2_pay1 (F := Ideal) xb tb w1 w2 y = Cert.Spec.mlp x t w1 w2 i := by
  obtain ⟨p, j, rfl⟩ : ∃ (p : Fin 2048) (j : Fin 64), y = ix2 p j := ⟨y 0, y 1, eq_ix2 y⟩
  obtain ⟨r, j', rfl⟩ : ∃ (r : Fin 16384) (j' : Fin 64), i = ix2 r j' := ⟨i 0, i 1, eq_ix2 i⟩
  obtain rfl : j' = j := Fin.ext hi1
  exact blk_value x t w1 w2 xb tb p j' r (fun k => hx (ix2 p k) (ix2 r k) rfl rfl rfl)
    (fun k => ht (ix2 p k) (ix2 r k) rfl rfl rfl)

/-! ## From the blocks to the array -/

/-- The two zero offsets of a whole-block access, as the constant zero function. -/
theorem zero_off : (![0, 0] : Fin 2 → Nat) = fun _ => 0 := funext fun a => by fin_cases a <;> rfl

/-- The windows' block indices over the grid: the two row-blocked inputs and the output are on block row t at point t,
    in block column 0; the weights are always on their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of the first input's block at point t is row 2048·t + p of the array. -/
theorem xblk_apply (c : Dev nD) (t : Fin cfg2.N) (u : S2048x64.Idx) (v : S16384x64.Idx)
    (h0 : (v 0).val = t.val * 2048 + (u 0).val) (h1 : (v 1).val = (u 1).val) :
    (iblk2 V c 0 t : Vec Ideal S2048x64 .f32) u = (V c main_arg1 : S16384x64.Idx → EReal) v := by
  obtain ⟨e0, e1, -⟩ := idx_facts t
  unfold iblk2
  rw [View.read_apply]
  show V c main_arg1 _ = V c main_arg1 _
  refine congrArg _ (funext fun a => Fin.ext ?_)
  match a with
  | ⟨0, _⟩ => show win2_0.index t (0 : Fin 2) * 2048 + 1 * (u 0).val = (v 0).val; omega
  | ⟨1, _⟩ => show win2_0.index t (1 : Fin 2) * 64 + 1 * (u 1).val = (v 1).val; omega

/-- Row p of the second input's block at point t is row 2048·t + p of the array. -/
theorem tblk_apply (c : Dev nD) (t : Fin cfg2.N) (u : S2048x64.Idx) (v : S16384x64.Idx)
    (h0 : (v 0).val = t.val * 2048 + (u 0).val) (h1 : (v 1).val = (u 1).val) :
    (iblk2 V c 1 t : Vec Ideal S2048x64 .f32) u = (V c main_v54 : S16384x64.Idx → EReal) v := by
  obtain ⟨-, -, e0, e1, -⟩ := idx_facts t
  unfold iblk2
  rw [View.read_apply]
  show V c main_v54 _ = V c main_v54 _
  refine congrArg _ (funext fun a => Fin.ext ?_)
  match a with
  | ⟨0, _⟩ => show win2_1.index t (0 : Fin 2) * 2048 + 1 * (u 0).val = (v 0).val; omega
  | ⟨1, _⟩ => show win2_1.index t (1 : Fin 2) * 64 + 1 * (u 1).val = (v 1).val; omega

/-- The first weight's one block is the whole array, at every point. -/
theorem w1blk_eq (c : Dev nD) (t : Fin cfg2.N) :
    (iblk2 V c 2 t : Vec Ideal S512x128 .f32) = (V c main_arg5 : S512x128.Idx → EReal) := by
  obtain ⟨-, -, -, -, e0, e1, -⟩ := idx_facts t
  unfold iblk2
  funext u
  rw [View.read_apply]
  show V c main_arg5 _ = V c main_arg5 _
  refine congrArg _ (funext fun a => Fin.ext ?_)
  match a with
  | ⟨0, _⟩ => show win2_2.index t (0 : Fin 2) * 512 + 1 * (u 0).val = (u 0).val; omega
  | ⟨1, _⟩ => show win2_2.index t (1 : Fin 2) * 128 + 1 * (u 1).val = (u 1).val; omega

/-- The second weight's one block is the whole array, at every point. -/
theorem w2blk_eq (c : Dev nD) (t : Fin cfg2.N) :
    (iblk2 V c 3 t : Vec Ideal S64x512 .f32) = (V c main_arg6 : S64x512.Idx → EReal) := by
  obtain ⟨-, -, -, -, -, -, e0, e1, -⟩ := idx_facts t
  unfold iblk2
  funext u
  rw [View.read_apply]
  show V c main_arg6 _ = V c main_arg6 _
  refine congrArg _ (funext fun a => Fin.ext ?_)
  match a with
  | ⟨0, _⟩ => show win2_3.index t (0 : Fin 2) * 64 + 1 * (u 0).val = (u 0).val; omega
  | ⟨1, _⟩ => show win2_3.index t (1 : Fin 2) * 512 + 1 * (u 1).val = (u 1).val; omega

/-- What point t writes back is block t of the perceptron of the arrays as the region finds them. -/
theorem flushed_eq (c : Dev nD) (t : Fin cfg2.N) :
    (dat2 (F := Ideal) V c).flushed 4 t = ((cfg2.win 4).blk t).view.read (Elt Ideal)
      (Cert.Spec.mlp (V c main_arg1) (V c main_v54) (V c main_arg5) (V c main_arg6)) := by
  show (cfg2.win 4).cut (grid2.coords t) ((dat2 V c).after 4 t) = _
  rw [after2_4]
  unfold out2_4
  rw [View.canon_unit_zero zero_off]
  simp only [View.ld_unit_zero (S := S2048x64) zero_off, View.ld_unit_zero (S := S512x128) zero_off, View.ld_unit_zero (S := S64x512) zero_off]
  rw [w1blk_eq, w2blk_eq]
  obtain ⟨-, -, -, -, -, -, -, -, e0, e1⟩ := idx_facts t
  funext y
  have hrow : ((((cfg2.win 4).blk t).view.emb y) 0).val = win2_4.index t (0 : Fin 2) * 2048 + 1 * (y 0).val := rfl
  refine blk_value_idx _ _ _ _ _ _ y (((cfg2.win 4).blk t).view.emb y) ?_
    (fun u v hu hv h1 => xblk_apply V c t u v ?_ h1) (fun u v hu hv h1 => tblk_apply V c t u v ?_ h1)
  · show win2_4.index t (1 : Fin 2) * 64 + 1 * (y 1).val = (y 1).val; omega
  · omega
  · omega

/-- An index of the output array is in point t's block iff each coordinate is in the block's range on its axis. -/
theorem mem_blk (t : Fin cfg2.N) (i : S16384x64.Idx) :
    i ∈ ((cfg2.win 4).blk t).view.set ↔ ∀ a : Fin 2, win2_4.index t a * S2048x64.size a ≤ (i a).val
      ∧ (i a).val < win2_4.index t a * S2048x64.size a + S2048x64.size a := by
  show i ∈ ((View.whole main_v55).slice (win2_4.rect t)).set ↔ _
  rw [View.set_slice_whole, Rect.mem_set_unit]
  exact Iff.rfl

/-- Every row r of the output array is in the block of point r / 2048. -/
theorem covered (i : S16384x64.Idx) : ∃ t : Fin cfg2.N, (cfg2.win 4).flush t = true ∧ i ∈ ((cfg2.win 4).blk t).view.set := by
  have hi0 : (i 0).val < 16384 := (i 0).isLt
  have hi1 : (i 1).val < 64 := (i 1).isLt
  have hN : cfg2.N = 8 := N_2
  let t : Fin cfg2.N := ⟨(i 0).val / 2048, by omega⟩
  obtain ⟨-, -, -, -, -, -, -, -, e0, e1⟩ := idx_facts t
  have ht : t.val = (i 0).val / 2048 := rfl
  refine ⟨t, flush2_4 t, ?_⟩
  rw [mem_blk]
  intro a
  match a with
  | ⟨0, _⟩ => show win2_4.index t (0 : Fin 2) * 2048 ≤ (i 0).val ∧ (i 0).val < win2_4.index t (0 : Fin 2) * 2048 + 2048; omega
  | ⟨1, _⟩ => show win2_4.index t (1 : Fin 2) * 64 ≤ (i 1).val ∧ (i 1).val < win2_4.index t (1 : Fin 2) * 64 + 64; omega

end Mlp

/-- The output array after the region: the perceptron of the four arrays as the region finds them. -/
theorem region2_o (c : Dev nD) :
    (dat2 (F := Ideal) V c).arrAt 4 cfg2.N = Cert.Spec.mlp (V c main_arg1) (V c main_v54) (V c main_arg5) (V c main_arg6) :=
  (dat2 (F := Ideal) V c).arrAt_eq_of_cover 4 _ (fun t _ => Mlp.flushed_eq V c t) Mlp.covered

end Cert.KernelIdeal.Val

end
-- ==== Proof.KernelRun.lean ====
/-
  The kernel program's run with its result named.

  The program is three kernel launches among stretches of host operations. Its execution terminates without a fault,
  the seven argument arrays end as they were launched, and the result buffer ends at the contents the last boundary
  of the run assigns to it: what the third launch's write-backs leave in its output array. The later modules read that
  array back through the three launches and the host stretches between them.
-/
import proofs.«139627_j73916387164334_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and every argument array as launched. The launch over the program's segments, the last thread
    state read against the final memory: the result at its own buffer, each argument walked back to the launch. -/
theorem run_main : θ_run defs (onTc (τ := τ) (main (F := F))) ⟨m, fun _ => 0, ρ⟩ (fun r => ∀ c : Dev nD,
      r.2.mem ((c.tc : Thread nD τ).loc main_v55) = W6 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v55 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.Val

end
-- ==== Proof.LibCatPair.lean ====
/-
  A two-operand concatenation as a plain function of its two operands.

  The join of two arrays along an axis is defined over a list of (shape, array) pairs; spelt as a function of the two
  arrays it can be rewritten under like any other operation (a rewriting pass does not descend into the dependent pairs
  of the list, so a line of host operations that joins two computed arrays is otherwise left half-evaluated). The two
  spellings are the same function by definition.
-/
import Idealize.ShloMosaic.PureOps.ShapeOps

noncomputable section

namespace Cert.LibCatPair

open Idealize.ShloMosaic

variable {α : Type}

/-- Two arrays joined along axis `a` of the result, as a function of the two arrays. -/
def pair {t s₁ s₂ : Shape} (a : Fin t.rank) (h : Shape.Concatenates [s₁, s₂] t a) (x₁ : s₁.Idx → α) (x₂ : s₂.Idx → α) :
    t.Idx → α :=
  concatenate t a [⟨s₁, x₁⟩, ⟨s₂, x₂⟩] h

/-- The list spelling is the function spelling. -/
theorem pair_def {t s₁ s₂ : Shape} (a : Fin t.rank) (h : Shape.Concatenates [s₁, s₂] t a) (x₁ : s₁.Idx → α)
    (x₂ : s₂.Idx → α) : concatenate t a [⟨s₁, x₁⟩, ⟨s₂, x₂⟩] h = pair a h x₁ x₂ := rfl

end Cert.LibCatPair

end
-- ==== Proof.HostVals.lean ====
/-
  The kernel program's result, read back through its three launches and the host stretches between them.

  The host side of the program does four things. Before the first launch it splits the edge list into its row of
  source nodes and its row of target nodes. Between the first and second launch it turns each projection [16384, 64]
  into a dense array [64, 512, 512]: transposed, and written into an array of zeros at the positions the edge list names
  (a negative node number counted from the end: 512 is added to it). Between the second and third launch it reads the
  channel-wise product back at the same positions and transposes it to [16384, 64]. Each launch's output array is given
  by that launch's value lemma as a function of the launch's input arrays; the arrays a launch does not write, and the
  buffers a host stretch does not write, pass through unchanged.
-/
import proofs.«139627_j73916387164334_1_alg».proof.Proof.KernelRun
import proofs.«139627_j73916387164334_1_alg».proof.Proof.Spec
import proofs.«139627_j73916387164334_1_alg».proof.Proof.LibCatPair
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

/-- One pass that evaluates a line of host operations at one buffer: every operation's result at its own buffer is its
    function of its operands' contents, and at any other buffer what was there before. -/
macro "host_results" : tactic =>
  `(tactic| simp (disch := decide) only [Cert.LibCatPair.pair_def, after_cons, after_nil,
      nullary_result', unary_result', binary_result', ternary_result', quaternary_result', reshape_result', nary4_result',
      nary_result', unaryIndexed_result', binaryIndexed_result',
      nullary_result_ne', unary_result_ne', binary_result_ne', ternary_result_ne', quaternary_result_ne', reshape_result_ne',
      nary_result_ne', unaryIndexed_result_ne', binaryIndexed_result_ne'])

/-! ## The host stretches as functions -/

/-- Row `0` of the edge list: the source node of each edge. -/
def srcRow (a0 : (⟨S2x16384, .i32⟩ : BufTy).Contents (Elt Ideal)) : (⟨S16384, .i32⟩ : BufTy).Contents (Elt Ideal) :=
  shapeCast S16384 (extractStridedSlice S1x16384 ![0, 0] a0 slices_S2x16384_S1x16384_0_0) shapeCasts_S1x16384_S16384

/-- Row `1` of the edge list: the target node of each edge. -/
def dstRow (a0 : (⟨S2x16384, .i32⟩ : BufTy).Contents (Elt Ideal)) : (⟨S16384, .i32⟩ : BufTy).Contents (Elt Ideal) :=
  shapeCast S16384 (extractStridedSlice S1x16384 ![1, 0] a0 slices_S2x16384_S1x16384_1_0) shapeCasts_S1x16384_S16384

/-- A node number counted from the end when negative: `v + 512` where `v < 0`, else `v`. -/
def wrap (v : (⟨S16384, .i32⟩ : BufTy).Contents (Elt Ideal)) : (⟨S16384, .i32⟩ : BufTy).Contents (Elt Ideal) :=
  select (cmpi .slt v (broadcastInDim S16384 ![] bcast_S_S16384 (constantI S_ 32 0#32)))
    (addi v (broadcastInDim S16384 ![] bcast_S_S16384 (constantI S_ 32 512#32))) v

/-- The [16384, 2] array of (source, target) positions, one row per edge. -/
def edgeIdx (r d : (⟨S16384, .i32⟩ : BufTy).Contents (Elt Ideal)) : (⟨S16384x2, .i32⟩ : BufTy).Contents (Elt Ideal) :=
  concatenate S16384x2 1 [⟨S16384x1, broadcastInDim S16384x1 ![0] bcast_S16384_S16384x1_0 (wrap r)⟩,
    ⟨S16384x1, broadcastInDim S16384x1 ![0] bcast_S16384_S16384x1_0 (wrap d)⟩] concatenates_S16384x1_S16384x1_S16384x2_d1

/-- A projection [16384, 64] as a dense array [64, 512, 512]: its transpose written into zeros at the edges' positions. -/
def dense (idx : (⟨S16384x2, .i32⟩ : BufTy).Contents (Elt Ideal)) (x : (⟨S16384x64, .f32⟩ : BufTy).Contents (Elt Ideal)) :
    (⟨S64x512x512, .bf16⟩ : BufTy).Contents (Elt Ideal) :=
  Host.scatter scatter_S64x512x512_S16384x2_S64x16384_0_12_12_1 (fun _ b => b)
    (broadcastInDim S64x512x512 ![] bcast_S_S64x512x512 (constant (F := Ideal) S_ .bf16 0x0000#16)) idx
    (truncf (F := Ideal) .bf16 (transpose S64x16384 [1, 0] x transposes_S16384x64_S64x16384_1_0) bitsLt_bf16_f32)

/-- A dense array [64, 512, 512] read at the edges' positions, as [16384, 64]. -/
def edgeVals (r : (⟨S64x512x512, .f32⟩ : BufTy).Contents (Elt Ideal)) (idx : (⟨S16384x2, .i32⟩ : BufTy).Contents (Elt Ideal)) :
    (⟨S16384x64, .f32⟩ : BufTy).Contents (Elt Ideal) :=
  transpose S16384x64 [1, 0] (Host.gather gather_S64x512x512_S16384x2_S64x16384_0_12_n_n_12_1_6411 r idx)
    transposes_S64x16384_S16384x64_1_0

/-- The whole program as one function of its arguments. -/
def whole (a0 : (⟨S2x16384, .i32⟩ : BufTy).Contents (Elt Ideal)) (x : (⟨S16384x64, .f32⟩ : BufTy).Contents (Elt Ideal))
    (w3 w4 : (⟨S64x64, .f32⟩ : BufTy).Contents (Elt Ideal)) (w5 : (⟨S512x128, .f32⟩ : BufTy).Contents (Elt Ideal))
    (w6 : (⟨S64x512, .f32⟩ : BufTy).Contents (Elt Ideal)) : (⟨S16384x64, .f32⟩ : BufTy).Contents (Elt Ideal) :=
  Cert.Spec.mlp x
    (edgeVals (Cert.Spec.bmm (dense (edgeIdx (srcRow a0) (dstRow a0)) (Cert.Spec.proj x w3))
        (dense (edgeIdx (srcRow a0) (dstRow a0)) (Cert.Spec.proj x w4))) (edgeIdx (srcRow a0) (dstRow a0)))
    w5 w6

variable (m : (ℓ : Loc nD τ sig) → Buf (Elt Ideal) ℓ) (ρ : Dev nD → PrngReg)

/-! ## Before the first launch -/

theorem W1_v1 (c : Dev nD) : W1 m ρ c (Proc.devRef .tc main_v1) = srcRow (m ((c : Thread nD τ).loc main_arg0)) := by
  show StableHlo.after hostOps0 (W0 m ρ c) (Proc.devRef .tc main_v1) = _
  host_results <;> rfl

theorem W1_v3 (c : Dev nD) : W1 m ρ c (Proc.devRef .tc main_v3) = dstRow (m ((c : Thread nD τ).loc main_arg0)) := by
  show StableHlo.after hostOps0 (W0 m ρ c) (Proc.devRef .tc main_v3) = _
  host_results <;> rfl

theorem W1_arg1 (c : Dev nD) : W1 m ρ c (Proc.devRef .tc main_arg1) = m ((c : Thread nD τ).loc main_arg1) := by
  show StableHlo.after hostOps0 (W0 m ρ c) (Proc.devRef .tc main_arg1) = _
  host_results <;> rfl

theorem W1_arg3 (c : Dev nD) : W1 m ρ c (Proc.devRef .tc main_arg3) = m ((c : Thread nD τ).loc main_arg3) := by
  show StableHlo.after hostOps0 (W0 m ρ c) (Proc.devRef .tc main_arg3) = _
  host_results <;> rfl

theorem W1_arg4 (c : Dev nD) : W1 m ρ c (Proc.devRef .tc main_arg4) = m ((c : Thread nD τ).loc main_arg4) := by
  show StableHlo.after hostOps0 (W0 m ρ c) (Proc.devRef .tc main_arg4) = _
  host_results <;> rfl

/-! ## After the first launch -/

theorem W2_v1 (c : Dev nD) : W2 m ρ c (Proc.devRef .tc main_v1) = srcRow (m ((c : Thread nD τ).loc main_arg0)) :=
  (W2_of_ne m ρ c main_v1 (by decide)).trans (W1_v1 m ρ c)

theorem W2_v3 (c : Dev nD) : W2 m ρ c (Proc.devRef .tc main_v3) = dstRow (m ((c : Thread nD τ).loc main_arg0)) :=
  (W2_of_ne m ρ c main_v3 (by decide)).trans (W1_v3 m ρ c)

section Launches

/- Each launch's output array as a function of the arrays the launch is entered with. -/
variable
  (hx : ∀ (V : (c : Dev nD) → (b : Ref sig .tc) → Buf (Elt Ideal) ((c : Thread nD τ).loc b)) (c : Dev nD),
    (dat0 (F := Ideal) V c).arrAt 3 cfg0.N = Cert.Spec.proj (V c main_arg1) (V c main_arg3))
  (hy : ∀ (V : (c : Dev nD) → (b : Ref sig .tc) → Buf (Elt Ideal) ((c : Thread nD τ).loc b)) (c : Dev nD),
    (dat0 (F := Ideal) V c).arrAt 4 cfg0.N = Cert.Spec.proj (V c main_arg1) (V c main_arg4))
  (hr : ∀ (V : (c : Dev nD) → (b : Ref sig .tc) → Buf (Elt Ideal) ((c : Thread nD τ).loc b)) (c : Dev nD),
    (dat1 (F := Ideal) V c).arrAt 2 cfg1.N = Cert.Spec.bmm (V c main_v21) (V c main_v38))
  (ho : ∀ (V : (c : Dev nD) → (b : Ref sig .tc) → Buf (Elt Ideal) ((c : Thread nD τ).loc b)) (c : Dev nD),
    (dat2 (F := Ideal) V c).arrAt 4 cfg2.N
      = Cert.Spec.mlp (V c main_arg1) (V c main_v54) (V c main_arg5) (V c main_arg6))

include hx in
/-- The first projection, as the first launch leaves it. -/
theorem W2_x (c : Dev nD) : W2 m ρ c (Proc.devRef .tc main_v4_0)
    = Cert.Spec.proj (m ((c : Thread nD τ).loc main_arg1)) (m ((c : Thread nD τ).loc main_arg3)) := by
  refine ((W2_arr m ρ c 3).trans (hx (V1 m ρ) c)).trans ?_
  show Cert.Spec.proj (W1 m ρ c (Proc.devRef .tc main_arg1)) (W1 m ρ c (Proc.devRef .tc main_arg3)) = _
  rw [W1_arg1, W1_arg3]

include hy in
/-- The second projection, as the first launch leaves it. -/
theorem W2_y (c : Dev nD) : W2 m ρ c (Proc.devRef .tc main_v4_1)
    = Cert.Spec.proj (m ((c : Thread nD τ).loc main_arg1)) (m ((c : Thread nD τ).loc main_arg4)) := by
  refine ((W2_arr m ρ c 4).trans (hy (V1 m ρ) c)).trans ?_
  show Cert.Spec.proj (W1 m ρ c (Proc.devRef .tc main_arg1)) (W1 m ρ c (Proc.devRef .tc main_arg4)) = _
  rw [W1_arg1, W1_arg4]

/-! ## Between the first and the second launch -/

set_option maxHeartbeats 4000000 in
theorem W3_v21 (c : Dev nD) : W3 m ρ c (Proc.devRef .tc main_v21)
    = dense (edgeIdx (W2 m ρ c (Proc.devRef .tc main_v1)) (W2 m ρ c (Proc.devRef .tc main_v3)))
        (W2 m ρ c (Proc.devRef .tc main_v4_0)) := by
  show StableHlo.after hostOps1 (W2 m ρ c) (Proc.devRef .tc main_v21) = _
  host_results <;> rfl

set_option maxHeartbeats 4000000 in
theorem W3_v38 (c : Dev nD) : W3 m ρ c (Proc.devRef .tc main_v38)
    = dense (edgeIdx (W2 m ρ c (Proc.devRef .tc main_v1)) (W2 m ρ c (Proc.devRef .tc main_v3)))
        (W2 m ρ c (Proc.devRef .tc main_v4_1)) := by
  show StableHlo.after hostOps1 (W2 m ρ c) (Proc.devRef .tc main_v38) = _
  host_results <;> rfl

set_option maxHeartbeats 4000000 in
theorem W3_v1 (c : Dev nD) : W3 m ρ c (Proc.devRef .tc main_v1) = W2 m ρ c (Proc.devRef .tc main_v1) := by
  show StableHlo.after hostOps1 (W2 m ρ c) (Proc.devRef .tc main_v1) = _
  host_results <;> rfl

set_option maxHeartbeats 4000000 in
theorem W3_v3 (c : Dev nD) : W3 m ρ c (Proc.devRef .tc main_v3) = W2 m ρ c (Proc.devRef .tc main_v3) := by
  show StableHlo.after hostOps1 (W2 m ρ c) (Proc.devRef .tc main_v3) = _
  host_results <;> rfl

/-! ## After the second launch -/

include hr in
/-- The channel-wise product, as the second launch leaves it. -/
theorem W4_r (c : Dev nD) : W4 m ρ c (Proc.devRef .tc main_v39)
    = Cert.Spec.bmm (W3 m ρ c (Proc.devRef .tc main_v21)) (W3 m ρ c (Proc.devRef .tc main_v38)) :=
  (W4_arr m ρ c 2).trans (hr (V3 m ρ) c)

theorem W4_v1 (c : Dev nD) : W4 m ρ c (Proc.devRef .tc main_v1) = W3 m ρ c (Proc.devRef .tc main_v1) :=
  W4_of_ne m ρ c main_v1 (by decide)

theorem W4_v3 (c : Dev nD) : W4 m ρ c (Proc.devRef .tc main_v3) = W3 m ρ c (Proc.devRef .tc main_v3) :=
  W4_of_ne m ρ c main_v3 (by decide)

/-! ## Between the second and the third launch -/

set_option maxHeartbeats 4000000 in
theorem W5_v54 (c : Dev nD) : W5 m ρ c (Proc.devRef .tc main_v54)
    = edgeVals (W4 m ρ c (Proc.devRef .tc main_v39))
        (edgeIdx (W4 m ρ c (Proc.devRef .tc main_v1)) (W4 m ρ c (Proc.devRef .tc main_v3))) := by
  show StableHlo.after hostOps2 (W4 m ρ c) (Proc.devRef .tc main_v54) = _
  host_results <;> rfl

/-- The third launch reads the edge features and the two perceptron weights as launched: it does not write its input
    arrays, and the whole run leaves the arguments unchanged. -/
theorem W5_arg1 (c : Dev nD) : W5 m ρ c (Proc.devRef .tc main_arg1) = m ((c : Thread nD τ).loc main_arg1) :=
  ((W6_arr m ρ c 0).trans (((dat2 (V5 m ρ) c).arrAt_in 0 rfl _).trans (A_eq2 (V5 m ρ) c 0))).symm.trans (W6_main_arg1 m ρ c)

theorem W5_arg5 (c : Dev nD) : W5 m ρ c (Proc.devRef .tc main_arg5) = m ((c : Thread nD τ).loc main_arg5) :=
  ((W6_arr m ρ c 2).trans (((dat2 (V5 m ρ) c).arrAt_in 2 rfl _).trans (A_eq2 (V5 m ρ) c 2))).symm.trans (W6_main_arg5 m ρ c)

theorem W5_arg6 (c : Dev nD) : W5 m ρ c (Proc.devRef .tc main_arg6) = m ((c : Thread nD τ).loc main_arg6) :=
  ((W6_arr m ρ c 3).trans (((dat2 (V5 m ρ) c).arrAt_in 3 rfl _).trans (A_eq2 (V5 m ρ) c 3))).symm.trans (W6_main_arg6 m ρ c)

/-! ## The result -/

include hx hy hr ho in
/-- The result buffer ends at the whole program's function of the arguments as launched. -/
theorem result_value (c : Dev nD) : W6 m ρ c (Proc.devRef .tc main_v55)
    = whole (m ((c : Thread nD τ).loc main_arg0)) (m ((c : Thread nD τ).loc main_arg1))
        (m ((c : Thread nD τ).loc main_arg3)) (m ((c : Thread nD τ).loc main_arg4))
        (m ((c : Thread nD τ).loc main_arg5)) (m ((c : Thread nD τ).loc main_arg6)) := by
  refine ((W6_arr m ρ c 4).trans (ho (V5 m ρ) c)).trans ?_
  show Cert.Spec.mlp (W5 m ρ c (Proc.devRef .tc main_arg1)) (W5 m ρ c (Proc.devRef .tc main_v54))
      (W5 m ρ c (Proc.devRef .tc main_arg5)) (W5 m ρ c (Proc.devRef .tc main_arg6)) = _
  rw [W5_arg1, W5_v54, W5_arg5, W5_arg6, W4_r m ρ hr, W4_v1, W4_v3, W3_v21, W3_v38, W3_v1, W3_v3, W2_v1, W2_v3,
    W2_x m ρ hx, W2_y m ρ hy]
  rfl

end Launches

end Cert.KernelIdeal.Val

end
-- ==== Proof.RefProj.lean ====
/-
  The reference's projection, read index by index.

  The host multiplies the edge rows x ([16384, 64]) by a transposed square weight: the transposed weight at (k, j) is the
  weight at (j, k), and the product contracts the rows' axis 1 with the transposed weight's axis 0, so the entry at
  (e, j) is ∑ₖ x (e, k) · w (j, k) — the projection of x by w.
-/
import proofs.«139627_j73916387164334_1_alg».proof.Proof.Gen.ReferenceIdeal
import proofs.«139627_j73916387164334_1_alg».proof.Proof.Spec
import proofs.«139627_j73916387164334_1_alg».proof.Proof.LibDense
import Idealize.ShloMosaic.Lib.ValueIdx
import Idealize.ShloMosaic.Lib.ValueLayout

noncomputable section

namespace Cert.ReferenceIdeal.RefVal

open Idealize.ShloMosaic Idealize.ShloMosaic.TcCoe Idealize.SL.Sem Cert.ReferenceIdeal Cert.ReferenceIdeal.Gen
open Idealize.ShloMosaic.ValueIdx
open scoped BigOperators

namespace Proj

/-- The host's product of the edge rows with the transposed weight, at (e, j): the sum over k of the rows at (e, k)
    times the weight at (j, k). -/
theorem entry (x : FVec Ideal S16384x64 .f32) (w : FVec Ideal S64x64 .f32) (e : Fin 16384) (j : Fin 64) :
    Host.dotGeneral dot_S16384x64_S64x64_S16384x64_1_0_0_1_n_n none x
        (transpose S64x64 [1, 0] w transposes_S64x64_S64x64_1_0) (ix2 e j)
      = ∑ k : Fin 64, x (ix2 e k) * w (ix2 j k) := by
  refine (Cert.LibDense.dotGeneral_plain dot_S16384x64_S64x64_S16384x64_1_0_0_1_n_n_wf none .single x _ e j).trans ?_
  refine Finset.sum_congr rfl fun k _ => ?_
  rw [transpose_ix2_apply]

end Proj

/-- The host's product of the edge rows with the transposed weight is the projection of the rows by the weight. -/
theorem proj_eq (x : FVec Ideal S16384x64 .f32) (w : FVec Ideal S64x64 .f32) :
    Host.dotGeneral dot_S16384x64_S64x64_S16384x64_1_0_0_1_n_n none x
        (transpose S64x64 [1, 0] w transposes_S64x64_S64x64_1_0) = Cert.Spec.proj x w := by
  funext i
  obtain ⟨e, j, rfl⟩ : ∃ (e : Fin 16384) (j : Fin 64), i = ix2 e j := ⟨i 0, i 1, eq_ix2 i⟩
  rw [Proj.entry]
  rfl

end Cert.ReferenceIdeal.RefVal

end
-- ==== Proof.LibBatch.lean ====
/-
  Batched matrix products and last-axis slices of rank-3 arrays read at an index, over variable extents. A batched
  product [B, M, K] · [B, K, N] on the host, at the extended reals, is at (b, p, c) the sum over the shared axis of the
  left factor's row (b, p) times the right factor's column (b, ·, c): batches never mix. A block of the last axis cut
  out of a rank-3 array reads the array at the shifted last coordinate.
-/
import Idealize.ShloMosaic.PureOps.Ideal.Laws
import Idealize.ShloMosaic.Lib.ValueIdx
import Idealize.ShloMosaic.Lib.Pipeline.Value

noncomputable section

namespace Cert.LibBatch

open Idealize.ShloMosaic Idealize.ShloMosaic.ValueIdx
open scoped BigOperators

variable {α : Type}

/-- Entries `o … o + C' − 1` of the last axis of an `[A, B, C]` array, read at `(a, b, j)`: the array at
    `(a, b, o + j)`. -/
theorem sliceLast3_apply {A B C C' : ℕ} (o : ℕ) (v : (⟨3, ![A, B, C]⟩ : Shape).Idx → α)
    (h : (⟨3, ![A, B, C]⟩ : Shape).Slices ![0, 0, o] ⟨3, ![A, B, C']⟩) (a : Fin A) (b : Fin B) (j : Fin C')
    (hj : o + j.val < C) :
    extractStridedSlice ⟨3, ![A, B, C']⟩ ![0, 0, o] v h (ix3 a b j) = v (ix3 a b ⟨o + j.val, hj⟩) :=
  extractStridedSlice_apply ![0, 0, o] v h (ix3 a b j) (ix3 a b ⟨o + j.val, hj⟩) (fun x => match x with
    | ⟨0, _⟩ => by show a.val = 0 + a.val; omega
    | ⟨1, _⟩ => by show b.val = 0 + b.val; omega
    | ⟨2, _⟩ => rfl)

/-- A batched `[B, M, K] · [B, K, N]` product on the host, read at `(b, p, c)` at the extended reals: the sum over the
    shared axis within batch `b`. The six hypotheses say which coordinates the product's dimension numbers pair up. -/
theorem dotGeneral_batched_apply {B M K N : ℕ} {φ₁ φ₂ : FTy}
    (d : DotDims ⟨3, ![B, M, K]⟩ ⟨3, ![B, K, N]⟩ ⟨3, ![B, M, N]⟩)
    (hr : d.contr.rank = 1) (hs : d.contr.size ⟨0, by omega⟩ = K)
    (hl0 : ∀ i q, (d.lhsIdx i q 0).val = (i 0).val) (hl1 : ∀ i q, (d.lhsIdx i q 1).val = (i 1).val)
    (hl2 : ∀ i q, (d.lhsIdx i q 2).val = (q ⟨0, by omega⟩).val)
    (hr0 : ∀ i q, (d.rhsIdx i q 0).val = (i 0).val) (hr1 : ∀ i q, (d.rhsIdx i q 1).val = (q ⟨0, by omega⟩).val)
    (hr2 : ∀ i q, (d.rhsIdx i q 2).val = (i 2).val)
    (prec : Option ContractPrecision) (lhs : FVec Ideal ⟨3, ![B, M, K]⟩ φ₁) (rhs : FVec Ideal ⟨3, ![B, K, N]⟩ φ₂)
    (b : Fin B) (p : Fin M) (c : Fin N) :
    Host.dotGeneral d prec lhs rhs (ix3 b p c) = ∑ k : Fin K, lhs (ix3 b p k) * rhs (ix3 b k c) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix3 b p c) ((contrEquiv1 d K hr hs).symm k) = ix3 b p k := funext fun a => Fin.ext (by
    match a with
    | ⟨0, _⟩ => exact hl0 _ _
    | ⟨1, _⟩ => exact hl1 _ _
    | ⟨2, _⟩ => exact (hl2 _ _).trans hk)
  have er : d.rhsIdx (ix3 b p c) ((contrEquiv1 d K hr hs).symm k) = ix3 b k c := funext fun a => Fin.ext (by
    match a with
    | ⟨0, _⟩ => exact hr0 _ _
    | ⟨1, _⟩ => exact (hr1 _ _).trans hk
    | ⟨2, _⟩ => exact hr2 _ _)
  rw [el, er]

end Cert.LibBatch

end
-- ==== Proof.RefBmm.lean ====
/-
  The reference's channel-wise product, index by index.

  The host's batched product of two [64, 512, 512] arrays a and b (batch axis 0 of both, the left factor's axis 2
  contracted with the right factor's axis 1) is at (f, p, q) the sum over k of a (f, p, k) · b (f, k, q): batches never
  mix, and the terms stand in the order of the shared coordinate. That is the channel-wise product of the specification,
  entry by entry.
-/
import proofs.«139627_j73916387164334_1_alg».proof.Proof.Gen.ReferenceIdeal
import proofs.«139627_j73916387164334_1_alg».proof.Proof.Spec
import proofs.«139627_j73916387164334_1_alg».proof.Proof.LibBatch
import proofs.«139627_j73916387164334_1_alg».proof.Proof.LibBatchMM
import Idealize.ShloMosaic.Lib.ValueIdx

noncomputable section

namespace Cert.ReferenceIdeal.RefVal

open Idealize.ShloMosaic Idealize.ShloMosaic.TcCoe Idealize.SL.Sem Cert.ReferenceIdeal Cert.ReferenceIdeal.Gen

namespace Bmm

open Idealize.ShloMosaic.ValueIdx
open scoped BigOperators

/-- The reference's batched product read at (f, p, q): the sum over the shared axis within channel f. Its dimension
    numbers pair the operands' coordinates with the result's as every batched product's do. -/
theorem dot_apply (a b : FVec Ideal S64x512x512 .f32) (f : Fin 64) (p q : Fin 512) :
    Host.dotGeneral dot_S64x512x512_S64x512x512_S64x512x512_2_1_1_2_0_0 none a b (ix3 f p q)
      = ∑ k : Fin 512, a (ix3 f p k) * b (ix3 f k q) :=
  Cert.LibBatch.dotGeneral_batched_apply dot_S64x512x512_S64x512x512_S64x512x512_2_1_1_2_0_0 rfl rfl
    (fun i k => Cert.LibBatchMM.lhs_batch dot_S64x512x512_S64x512x512_S64x512x512_2_1_1_2_0_0_wf i k)
    (fun i k => Cert.LibBatchMM.lhs_row dot_S64x512x512_S64x512x512_S64x512x512_2_1_1_2_0_0_wf i k)
    (fun i k => (Cert.LibBatchMM.batchedOf dot_S64x512x512_S64x512x512_S64x512x512_2_1_1_2_0_0_wf).lhsIdx_val_of_single rfl i k)
    (fun i k => Cert.LibBatchMM.rhs_batch dot_S64x512x512_S64x512x512_S64x512x512_2_1_1_2_0_0_wf i k)
    (fun i k => (Cert.LibBatchMM.batchedOf dot_S64x512x512_S64x512x512_S64x512x512_2_1_1_2_0_0_wf).rhsIdx_val_of_single rfl i k)
    (fun i k => Cert.LibBatchMM.rhs_col dot_S64x512x512_S64x512x512_S64x512x512_2_1_1_2_0_0_wf i k)
    none a b f p q

end Bmm

/-- The reference's batched product of a and b is their channel-wise product. -/
theorem bmm_eq (a b : FVec Ideal S64x512x512 .f32) :
    Host.dotGeneral dot_S64x512x512_S64x512x512_S64x512x512_2_1_1_2_0_0 none a b = Cert.Spec.bmm a b := by
  funext i
  obtain ⟨f, p, q, rfl⟩ : ∃ (f : Fin 64) (p q : Fin 512), i = ValueIdx.ix3 f p q := ⟨i 0, i 1, i 2, ValueIdx.eq_ix3 i⟩
  exact Bmm.dot_apply a b f p q

end Cert.ReferenceIdeal.RefVal

end
-- ==== Proof.RefTail.lean ====
/-
  The reference program's perceptron tail, index by index, on the extended reals.

  The reference lays the edge rows x and tm ([16384, 64] each) side by side, multiplies by the transposed first weight,
  takes the maximum with an array of zeros, and multiplies by the transposed second weight. Read at row e and column j
  this is

      ∑ₕ max (∑ₖ cat (e, k) · w₁ (h, k)) 0 · w₂ (j, h):

  a product on the host read at an index is the sum over the shared axis, a transposed weight read at (k, c) is the
  weight at (c, k), the array of zeros is a scalar zero spread over every index, and the two arrays side by side read at
  (e, k) are x (e, k) for k < 64 and tm (e, k − 64) otherwise.
-/
import proofs.«139627_j73916387164334_1_alg».proof.Proof.Gen.ReferenceIdeal
import proofs.«139627_j73916387164334_1_alg».proof.Proof.Spec
import proofs.«139627_j73916387164334_1_alg».proof.Proof.LibDense
import Idealize.ShloMosaic.Lib.ValueLayout

noncomputable section

namespace Cert.ReferenceIdeal.RefVal

open Idealize.ShloMosaic Idealize.ShloMosaic.TcCoe Idealize.SL.Sem Cert.ReferenceIdeal Cert.ReferenceIdeal.Gen

namespace Tail

open Idealize.ShloMosaic.ValueIdx
open scoped BigOperators

/-- The tail read at row e and column j: the second layer applied to the hidden row e. -/
theorem tail_apply (x t : FVec Ideal S16384x64 .f32) (w1 : FVec Ideal S512x128 .f32) (w2 : FVec Ideal S64x512 .f32)
    (e : Fin 16384) (j : Fin 64) :
    Host.dotGeneral dot_S16384x512_S512x64_S16384x64_1_0_0_1_n_n none
        (maximumf (Host.dotGeneral dot_S16384x128_S128x512_S16384x512_1_0_0_1_n_n none
            (concatenate S16384x128 1 [⟨S16384x64, x⟩, ⟨S16384x64, t⟩] concatenates_S16384x64_S16384x64_S16384x128_d1)
            (transpose S128x512 [1, 0] w1 transposes_S512x128_S128x512_1_0))
          (broadcastInDim S16384x512 ![] bcast_S_S16384x512 (constant (F := Ideal) S_ .f32 0x00000000#32)))
        (transpose S512x64 [1, 0] w2 transposes_S64x512_S512x64_1_0) (ix2 e j)
      = ∑ h : Fin 512, Cert.Spec.hidden x t w1 e h * w2 (ix2 j h) := by
  refine (LibDense.dotGeneral_plain dot_S16384x512_S512x64_S16384x64_1_0_0_1_n_n_wf none .single _ _ e j).trans ?_
  refine Finset.sum_congr rfl fun h _ => ?_
  refine congrArg₂ (· * ·) ?_ (transpose_ix2_apply _ _ h j)
  show max (Host.dotGeneral dot_S16384x128_S128x512_S16384x512_1_0_0_1_n_n none _ _ (ix2 e h))
    (Ideal.ofBits .f32 0x00000000#32) = _
  rw [Ideal.ofBits_zero_f32]
  unfold Cert.Spec.hidden
  refine congrArg (max · 0) ?_
  refine (LibDense.dotGeneral_plain dot_S16384x128_S128x512_S16384x512_1_0_0_1_n_n_wf none .single _ _ e h).trans ?_
  refine Finset.sum_congr rfl fun k _ => ?_
  refine congrArg₂ (· * ·) ?_ (transpose_ix2_apply _ _ k h)
  unfold Cert.Spec.cat
  exact LibDense.concat_cols_apply rfl x t concatenates_S16384x64_S16384x64_S16384x128_d1 e k

end Tail

open Idealize.ShloMosaic.ValueIdx in
/-- The reference's tail is the perceptron of its four arrays. -/
theorem tail_eq (x t : FVec Ideal S16384x64 .f32) (w1 : FVec Ideal S512x128 .f32) (w2 : FVec Ideal S64x512 .f32) :
    Host.dotGeneral dot_S16384x512_S512x64_S16384x64_1_0_0_1_n_n none
        (maximumf (Host.dotGeneral dot_S16384x128_S128x512_S16384x512_1_0_0_1_n_n none
            (concatenate S16384x128 1 [⟨S16384x64, x⟩, ⟨S16384x64, t⟩] concatenates_S16384x64_S16384x64_S16384x128_d1)
            (transpose S128x512 [1, 0] w1 transposes_S512x128_S128x512_1_0))
          (broadcastInDim S16384x512 ![] bcast_S_S16384x512 (constant (F := Ideal) S_ .f32 0x00000000#32)))
        (transpose S512x64 [1, 0] w2 transposes_S64x512_S512x64_1_0)
      = Cert.Spec.mlp x t w1 w2 := by
  funext i
  obtain ⟨e, j, rfl⟩ : ∃ (e : Fin 16384) (j : Fin 64), i = ix2 e j := ⟨i 0, i 1, eq_ix2 i⟩
  exact Tail.tail_apply x t w1 w2 e j

end Cert.ReferenceIdeal.RefVal

end
-- ==== Proof.RefSide.lean ====
/-
  The reference program's result is the same function of the arguments as the kernel program's.

  The reference computes the two projections, the channel-wise product and the perceptron with host matrix products; each
  of these, read at an index, is the finite sum that the specification names. Around them it performs the same host
  operations as the kernel program — the edge list split into rows, negative node numbers counted from the end, the
  projections transposed and written into zeros at the edges' positions, the product read back there — on the same
  operands. Two spellings differ and are the same at the extended reals: the zeros the kernel program writes into carry a
  16-bit float word and the reference's a 32-bit one, both the number zero; and the kernel program narrows the
  transposed projections to the 16-bit format first, which is the identity on extended reals.
-/
import proofs.«139627_j73916387164334_1_alg».proof.Proof.RefRunP
import proofs.«139627_j73916387164334_1_alg».proof.Proof.RefProj
import proofs.«139627_j73916387164334_1_alg».proof.Proof.RefBmm
import proofs.«139627_j73916387164334_1_alg».proof.Proof.RefTail
import proofs.«139627_j73916387164334_1_alg».proof.Proof.HostVals
import Idealize.ShloMosaic.PureOps.Ideal.Laws

set_option maxRecDepth 16384

noncomputable section

namespace Cert.ReferenceIdeal.RefVal

open Idealize.ShloMosaic Idealize.ShloMosaic.TcCoe Idealize.SL.Sem Cert.ReferenceIdeal Cert.ReferenceIdeal.Gen

/-- The 16-bit float word of zero and the 32-bit float word of zero are the same extended real, zero: the two constant
    scalars are one function. -/
theorem zero_words : (constant (F := Ideal) Cert.KernelIdeal.S_ .bf16 0x0000#16 : Cert.KernelIdeal.S_.Idx → EReal)
    = constant (F := Ideal) S_ .f32 0x00000000#32 := by
  funext i
  show Ideal.ofBits .bf16 0x0000#16 = Ideal.ofBits .f32 0x00000000#32
  rw [Ideal.ofBits_zero_f32]
  simp [Ideal.ofBits, Ideal.ieee]

set_option maxHeartbeats 4000000 in
/-- The reference's composed term is the whole program's function of the arguments. -/
theorem ref_value (m : (ℓ : Loc nD τ sig) → Buf (Elt Ideal) ℓ) (c : Dev nD) :
    Cert.ReferenceIdeal.ValueP.res_main_v61 (F := Ideal) m c
      = Cert.KernelIdeal.Val.whole (m ((c.tc : Thread nD τ).loc main_arg0)) (m ((c.tc : Thread nD τ).loc main_arg1))
          (m ((c.tc : Thread nD τ).loc main_arg3)) (m ((c.tc : Thread nD τ).loc main_arg4))
          (m ((c.tc : Thread nD τ).loc main_arg5)) (m ((c.tc : Thread nD τ).loc main_arg6)) := by
  unfold Cert.ReferenceIdeal.ValueP.res_main_v61
  rw [tail_eq, bmm_eq, proj_eq, proj_eq]
  unfold Cert.KernelIdeal.Val.whole Cert.KernelIdeal.Val.dense
  rw [zero_words]
  rfl

end Cert.ReferenceIdeal.RefVal

end
-- ==== Proof.lean ====
/-
  The certificate of an edge-feature layer of a graph network: a three-launch kernel program against its array-level
  reference.

  The layer takes an edge list [2, 16384] over 512 nodes, edge features c : [16384, 64] and four weight matrices. It forms
  two linear projections x = c · w₁ᵀ and y = c · w₂ᵀ, scatters each (transposed) into a dense array [64, 512, 512] of zeros
  at the edges' (source, target) positions, multiplies the two dense arrays channel by channel, reads the product back at
  the edges' positions, lays the result beside c, and applies a two-layer perceptron with a rectifier between the layers.
  The kernel program does the three matrix-product stages in kernels — row blocks of 2048 edges for the projections and for
  the perceptron, blocks of 4 channels for the channel-wise product — and the scatter and the read-back on the host; the
  reference does everything on the host.

  On the extended reals the two programs compute one function of the arguments (`Cert.KernelIdeal.Val.whole`): every block
  of a kernel's output is the restriction of the whole-array product to that block, the blocks cover the output, no
  product is split along its summed axis, so each entry is the same finite sum of products on both sides, written in the
  same order; changes of float format are the identity; the host operations around the products are the same operations
  on the same operands. No property of the inputs beyond the stated one is used, and the sums are never rearranged, so
  finiteness of the inputs is not needed for the value.

  Modules: `Spec` (the products and the perceptron as index-by-index functions), `Region0` / `Region1` / `Region2` (each
  launch's output array is that function of the launch's input arrays), `KernelRun` (the program's run with its result
  named), `HostVals` (the result read back through the launches and the host stretches), `RefRunP` (the reference's run),
  `RefProj` / `RefBmm` / `RefTail` / `RefSide` (the reference's composed term is the same function).
-/
import proofs.«139627_j73916387164334_1_alg».proof.Defs
import proofs.«139627_j73916387164334_1_alg».proof.Proof.Gen.Kernel
import proofs.«139627_j73916387164334_1_alg».proof.Proof.Gen.Kernel.Skeleton
import proofs.«139627_j73916387164334_1_alg».proof.Proof.Gen.Kernel.Launch
import proofs.«139627_j73916387164334_1_alg».proof.Proof.Gen.Kernel.Points
import proofs.«139627_j73916387164334_1_alg».proof.Proof.Gen.Kernel.Frame
import proofs.«139627_j73916387164334_1_alg».proof.Proof.Gen.KernelIdeal
import proofs.«139627_j73916387164334_1_alg».proof.Proof.Gen.KernelIdeal.Skeleton
import proofs.«139627_j73916387164334_1_alg».proof.Proof.Gen.KernelIdeal.Launch
import proofs.«139627_j73916387164334_1_alg».proof.Proof.Gen.KernelIdeal.Points
import proofs.«139627_j73916387164334_1_alg».proof.Proof.Gen.KernelIdeal.Frame
import proofs.«139627_j73916387164334_1_alg».proof.Proof.Gen.ReferenceIdeal
import proofs.«139627_j73916387164334_1_alg».proof.Proof.Gen.Pre_finite_inputs
import proofs.«139627_j73916387164334_1_alg».proof.Proof.Region0
import proofs.«139627_j73916387164334_1_alg».proof.Proof.Region1
import proofs.«139627_j73916387164334_1_alg».proof.Proof.Region2
import proofs.«139627_j73916387164334_1_alg».proof.Proof.KernelRun
import proofs.«139627_j73916387164334_1_alg».proof.Proof.HostVals
import proofs.«139627_j73916387164334_1_alg».proof.Proof.RefRunP
import proofs.«139627_j73916387164334_1_alg».proof.Proof.RefSide
import Idealize.ShloMosaic.Adequacy
import Idealize.ShloMosaic.Init

noncomputable section

namespace Cert.Proof

open Idealize.ShloMosaic Idealize.SL.Sem

/-- The kernel program as printed runs, faults nowhere and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation of the kernel program. -/
theorem preserves : Cert.preserves_Kernel_KernelIdeal := trivial

/-- From memories that agree on the arguments both programs end with the result at the one function `whole` of the
    arguments: the kernel program by its run and the read-back of its result, the reference by its run and its composed
    term. -/
theorem algebraic : Cert.algebraic_KernelIdeal_ReferenceIdeal := by
  intro m ρ m' ρ' _ hagree
  refine ⟨fun c => Cert.KernelIdeal.Val.whole
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Val.result_value m ρ Cert.KernelIdeal.Val.region0_x
          Cert.KernelIdeal.Val.region0_y Cert.KernelIdeal.Val.region1_r Cert.KernelIdeal.Val.region2_o c), (h c).2⟩)
      (Cert.KernelIdeal.Val.run_main (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefVal.ref_value, (hagree c).1, (hagree c).2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
